-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel

variable [Facts]

def fn {F : FTy → Type} [FloatOps F] (main_arg0 : FVec F S262144x256 .f32) (main_arg1 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  main_v3
-- ==== Kernel.lean ====
abbrev S262144x256 : Shape := ⟨2, ![262144, 256]⟩
abbrev S262144 : Shape := ⟨1, ![262144]⟩
abbrev S262144x1 : Shape := ⟨2, ![262144, 1]⟩
abbrev S2x256x256 : Shape := ⟨3, ![2, 256, 256]⟩
abbrev S2x1x256 : Shape := ⟨3, ![2, 1, 256]⟩
abbrev S4096x256 : Shape := ⟨2, ![4096, 256]⟩
abbrev S4096x1 : Shape := ⟨2, ![4096, 1]⟩
abbrev S1x256x256 : Shape := ⟨3, ![1, 256, 256]⟩
abbrev S1x1x256 : Shape := ⟨3, ![1, 1, 256]⟩
abbrev S256x256 : Shape := ⟨2, ![256, 256]⟩
abbrev S1x256 : Shape := ⟨2, ![1, 256]⟩
abbrev S1x4096 : Shape := ⟨2, ![1, 4096]⟩
abbrev S_ : Shape := ⟨0, ![]⟩
abbrev S256x1 : Shape := ⟨2, ![256, 1]⟩
abbrev S256 : Shape := ⟨1, ![256]⟩
abbrev S4096 : Shape := ⟨1, ![4096]⟩

abbrev nBuf : Space → Nat
  | .hbm => 20
  | .vmem => 14
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S262144x1, .i32⟩
  | .hbm, ⟨3, _⟩ => ⟨S2x256x256, .f32⟩
  | .hbm, ⟨4, _⟩ => ⟨S2x1x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S1x256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256, .f32⟩
  | .hbm, ⟨18, _⟩ => ⟨S1x256, .f32⟩
  | .hbm, ⟨19, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S1x256x256, .f32⟩
  | .local _ .vmem, ⟨5, _⟩ => ⟨S1x256x256, .f32⟩
  | .local _ .vmem, ⟨6, _⟩ => ⟨S1x1x256, .f32⟩
  | .local _ .vmem, ⟨7, _⟩ => ⟨S1x1x256, .f32⟩
  | .local _ .vmem, ⟨8, _⟩ => ⟨S4096x256, .f32⟩
  | .local _ .vmem, ⟨9, _⟩ => ⟨S4096x256, .f32⟩
  | .local _ .vmem, ⟨10, _⟩ => ⟨S256x256, .f32⟩
  | .local _ .vmem, ⟨11, _⟩ => ⟨S1x256, .f32⟩
  | .local _ .vmem, ⟨12, _⟩ => ⟨S4096x256, .f32⟩
  | .local _ .vmem, ⟨13, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S262144_S262144x1 : S262144.ShapeCasts S262144x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x256_d1_w32 : S4096x256.Iotas .tc 32 [1]
  broadcasts_S4096x1_S4096x256 : S4096x1.Broadcasts S4096x256
  natLt_1_32 : 1 < 32
  bitsLt_bf16_f32 : FTy.bits .bf16 < FTy.bits .f32
  reducesTo_S2x256x256_S256x256_d0 : S2x256x256.ReducesTo [0] S256x256
  h_S_ : 0 < S_.numel
  reducesTo_S2x1x256_S1x256_d0 : S2x1x256.ReducesTo [0] S1x256
  transposes_S1x256_S256x1_1_0 : S1x256.Transposes [1, 0] S256x1
  bcast_S_S256x1 : S_.BroadcastsInDim S256x1 (![] : Fin 0 → Fin S256x1.rank)
  bcast_S256x1_S256x256_0_1 : S256x1.BroadcastsInDim S256x256 (![0, 1] : Fin 2 → Fin S256x256.rank)
  reducesTo_S256x256_S256_d1 : S256x256.ReducesTo [1] S256
  bcast_S256_S1x256_1 : S256.BroadcastsInDim S1x256 (![1] : Fin 1 → Fin S1x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4096x256_S4096 : S4096x256.Reduces [1] S4096
  shapeCasts_S4096_S4096x1 : S4096.ShapeCasts S4096x1
  transposes_S256x256_p1_0_S256x256 : S256x256.Transposes [1, 0] S256x256
  broadcasts_S1x256_S4096x256 : S1x256.Broadcasts S4096x256
  dot_S4096x256_S4096x256_S256x256_0_0_1_1_n_n_wf : DotDims.WF S4096x256 S4096x256 S256x256 [0] [0] [1] [1] [] []
  dot_S1x4096_S4096x256_S1x256_1_0_0_1_n_n_wf : DotDims.WF S1x4096 S4096x256 S1x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S262144x256.size a
  hwx1_3 : ∀ i : grid1.Coords, EltTy.bits .f32 = 32 ∨ (Rect.block (s := S262144x256) S4096x256.size (cc1_transform_3 i) (hinb1_3 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144 : Shape := ⟨1, ![262144]⟩
abbrev S_ : Shape := ⟨0, ![]⟩
abbrev S262144x1 : Shape := ⟨2, ![262144, 1]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 66
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S_, .f32⟩
  | .hbm, ⟨3, _⟩ => ⟨S262144x256, .f32⟩
  | .hbm, ⟨4, _⟩ => ⟨S262144x256, .f32⟩
  | .hbm, ⟨5, _⟩ => ⟨S_, .f32⟩
  | .hbm, ⟨6, _⟩ => ⟨S262144, .f32⟩
  | .hbm, ⟨7, _⟩ => ⟨S_, .f32⟩
  | .hbm, ⟨8, _⟩ => ⟨S262144, .f32⟩
  | .hbm, ⟨9, _⟩ => ⟨S262144, .f32⟩
  | .hbm, ⟨10, _⟩ => ⟨S262144x1, .f32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S_, .f32⟩
  | .hbm, ⟨15, _⟩ => ⟨S262144, .f32⟩
  | .hbm, ⟨16, _⟩ => ⟨S262144x1, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S256x256, .f32⟩
  | .hbm, ⟨21, _⟩ => ⟨S262144x1, .i32⟩
  | .hbm, ⟨22, _⟩ => ⟨S256x256, .f32⟩
  | .hbm, ⟨23, _⟩ => ⟨S_, .f32⟩
  | .hbm, ⟨24, _⟩ => ⟨S262144, .f32⟩
  | .hbm, ⟨25, _⟩ => ⟨S_, .f32⟩
  | .hbm, ⟨26, _⟩ => ⟨S256, .f32⟩
  | .hbm, ⟨27, _⟩ => ⟨S262144x1, .i32⟩
  | .hbm, ⟨28, _⟩ => ⟨S256, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S256x256, .f32⟩
  | .hbm, ⟨34, _⟩ => ⟨S256x256, .f32⟩
  | .hbm, ⟨35, _⟩ => ⟨S262144x256, .f32⟩
  | .hbm, ⟨36, _⟩ => ⟨S_, .f32⟩
  | .hbm, ⟨37, _⟩ => ⟨S262144, .f32⟩
  | .hbm, ⟨38, _⟩ => ⟨S262144x1, .f32⟩
  | .hbm, ⟨39, _⟩ => ⟨S256x256, .f32⟩
  | .hbm, ⟨40, _⟩ => ⟨S_, .f32⟩
  | .hbm, ⟨41, _⟩ => ⟨S256, .f32⟩
  | .hbm, ⟨42, _⟩ => ⟨S1x256, .f32⟩
  | .hbm, ⟨43, _⟩ => ⟨S262144x256, .f32⟩
  | .hbm, ⟨44, _⟩ => ⟨S262144x256, .f32⟩
  | .hbm, ⟨45, _⟩ => ⟨S262144x256, .f32⟩
  | .hbm, ⟨46, _⟩ => ⟨S256x256, .f32⟩
  | .hbm, ⟨47, _⟩ => ⟨S262144x256, .f32⟩
  | .hbm, ⟨48, _⟩ => ⟨S_, .f32⟩
  | .hbm, ⟨49, _⟩ => ⟨S262144x256, .f32⟩
  | .hbm, ⟨50, _⟩ => ⟨S262144x256, .f32⟩
  | .hbm, ⟨51, _⟩ => ⟨S262144x256, .f32⟩
  | .hbm, ⟨52, _⟩ => ⟨S_, .f32⟩
  | .hbm, ⟨53, _⟩ => ⟨S262144x256, .f32⟩
  | .hbm, ⟨54, _⟩ => ⟨S262144x256, .f32⟩
  | .hbm, ⟨55, _⟩ => ⟨S262144x256, .f32⟩
  | .hbm, ⟨56, _⟩ => ⟨S_, .f32⟩
  | .hbm, ⟨57, _⟩ => ⟨S262144x256, .f32⟩
  | .hbm, ⟨58, _⟩ => ⟨S262144x256, .f32⟩
  | .hbm, ⟨59, _⟩ => ⟨S262144x256, .f32⟩
  | .hbm, ⟨60, _⟩ => ⟨S262144x256, .f32⟩
  | .hbm, ⟨61, _⟩ => ⟨S_, .f32⟩
  | .hbm, ⟨62, _⟩ => ⟨S262144, .f32⟩
  | .hbm, ⟨63, _⟩ => ⟨S262144x1, .f32⟩
  | .hbm, ⟨64, _⟩ => ⟨S262144x256, .f32⟩
  | .hbm, ⟨65, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  bcast_S_S262144x256 : S_.BroadcastsInDim S262144x256 (![] : Fin 0 → Fin S262144x256.rank)
  reducesTo_S262144x256_S262144_d1 : S262144x256.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S256x256 : S_.BroadcastsInDim S256x256 (![] : Fin 0 → Fin S256x256.rank)
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  reducesTo_S256x256_S256_d1 : S256x256.ReducesTo [1] S256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  transposes_S256x256_S256x256_1_0 : S256x256.Transposes [1, 0] S256x256
  scatter_S256x256_S262144x1_S262144x256_1_0_0_1_wf : ScatterDims.WF S256x256 S262144x1 S262144x256 [1] [0] [0] 1
  scatter_S256_S262144x1_S262144_n_0_0_1_wf : ScatterDims.WF S256 S262144x1 S262144 [] [0] [0] 1
  dot_S262144x256_S256x256_S262144x256_1_0_0_1_n_n_wf : DotDims.WF S262144x256 S256x256 S262144x256 [1] [0] [0] [1] [] []

variable [Facts₀]

def scatter_S256x256_S262144x1_S262144x256_1_0_0_1 : ScatterDims S256x256 S262144x1 S262144x256 where
  updateWindowDims := [1]
  insertedWindowDims := [0]
  scatterDimsToOperandDims := [0]
  indexVectorDim := 1
  wf := scatter_S256x256_S262144x1_S262144x256_1_0_0_1_wf
def scatter_S256_S262144x1_S262144_n_0_0_1 : ScatterDims S256 S262144x1 S262144 where
  updateWindowDims := []
  insertedWindowDims := [0]
  scatterDimsToOperandDims := [0]
  indexVectorDim := 1
  wf := scatter_S256_S262144x1_S262144_n_0_0_1_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Spec.lean ====
/-
  The mathematics both programs compute, stated once over the extended reals.

  Input: a table `x` of 262144 rows and 256 channels, and one 32-bit label word per row (held as a column).
  Row `n` belongs to class `c` (0 ≤ c < 256) when its label word is the word of `c`; any other word belongs to no class.
  * `segSum c d`  : the sum over the rows of class `c` of channel `d`;  `segCnt c` : the number of rows of class `c`.
    Both are written as sums over ALL rows of a term that vanishes off the class, and over a range of naturals, so that
    a sum over consecutive blocks of rows is a sum over consecutive ranges (`partSum`, `partCnt`: one half of the rows).
  * `mean c d = segSum c d / (segCnt c + ε)` : the class means;  `sqRow` : each class mean's squared length.
  * per row `n` and class `j`: the softmax of the row, the squared distance of the row to the class mean `j`
    expanded as |x|² + |μ|² − 2⟨x, μ⟩, clipped at 0, its root `r`, the weight `softmax · exp(−r/10)`, and the weights
    normalised over the classes: `out`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The label column, the data table, a 256 × 256 matrix, a 1 × 256 row. -/
abbrev Lab := (⟨2, ![262144, 1]⟩ : Shape).Idx → BitVec 32
abbrev Tab := (⟨2, ![262144, 256]⟩ : Shape).Idx → EReal
abbrev Mat := (⟨2, ![256, 256]⟩ : Shape).Idx → EReal
abbrev Row := (⟨2, ![1, 256]⟩ : Shape).Idx → EReal

/-- A flat vector of label words as a column. -/
def col (l : (⟨1, ![262144]⟩ : Shape).Idx → BitVec 32) : Lab := fun i => l (ix1 (i 0))

/-- Row `n`'s contribution to the sum of class `c` at channel `d`: its entry when its label is `c`, else nothing
    (and nothing for a natural that is not a row). -/
def term (x : Tab) (lab : Lab) (c d : Fin 256) (n : ℕ) : EReal :=
  if h : n < 262144 then (if lab (ix2 ⟨n, h⟩ 0) = BitVec.ofNat 32 c.val then x (ix2 ⟨n, h⟩ d) else 0) else 0

/-- Row `n`'s contribution to the count of class `c`. -/
def unit (lab : Lab) (c : Fin 256) (n : ℕ) : EReal :=
  if h : n < 262144 then (if lab (ix2 ⟨n, h⟩ 0) = BitVec.ofNat 32 c.val then 1 else 0) else 0

/-- The class sums and counts over half `p` of the rows (rows `p · 131072 … p · 131072 + 131071`). -/
def partSum (x : Tab) (lab : Lab) (p : Fin 2) (c d : Fin 256) : EReal :=
  ∑ n ∈ Finset.Ico (p.val * 131072) (p.val * 131072 + 131072), term x lab c d n
def partCnt (lab : Lab) (p : Fin 2) (c : Fin 256) : EReal :=
  ∑ n ∈ Finset.Ico (p.val * 131072) (p.val * 131072 + 131072), unit lab c n

/-- The class sums and counts over all rows. -/
def segSum (x : Tab) (lab : Lab) (c d : Fin 256) : EReal := ∑ n ∈ Finset.range 262144, term x lab c d n
def segCnt (lab : Lab) (c : Fin 256) : EReal := ∑ n ∈ Finset.range 262144, unit lab c n

/-- The two halves add up to the whole. -/
theorem partSum_add (x : Tab) (lab : Lab) (c d : Fin 256) :
    partSum x lab 0 c d + partSum x lab 1 c d = segSum x lab c d := by
  unfold partSum segSum
  rw [Finset.range_eq_Ico]
  exact Finset.sum_Ico_consecutive _ (by decide) (by decide)
theorem partCnt_add (lab : Lab) (c : Fin 256) : partCnt lab 0 c + partCnt lab 1 c = segCnt lab c := by
  unfold partCnt segCnt
  rw [Finset.range_eq_Ico]
  exact Finset.sum_Ico_consecutive _ (by decide) (by decide)

/-- The constant added to a count before dividing. -/
def epsv : EReal := Ideal.ofBits .f32 0x322BCC77#32

/-- The class means, by coordinates and as a matrix; a matrix's rows' squared lengths as a row. -/
def mean (x : Tab) (lab : Lab) (c d : Fin 256) : EReal := Ideal.div (segSum x lab c d) (segCnt lab c + epsv)
def meanMat (x : Tab) (lab : Lab) : Mat := fun i => mean x lab (i 0) (i 1)
def sqRow (cm : Mat) : Row := fun i => ∑ k : Fin 256, cm (ix2 (i 1) k) * cm (ix2 (i 1) k)

/-- The largest entry of row `n` (from −∞). -/
def rowMax (x : Tab) (n : Fin 262144) : EReal :=
  (Finset.univ : Finset (Fin 256)).fold max ⊥ (fun k => x (ix2 n k))
/-- The softmax of row `n`. -/
def sexp (x : Tab) (n : Fin 262144) (k : Fin 256) : EReal := Ideal.exp (x (ix2 n k) - rowMax x n)
def soft (x : Tab) (n : Fin 262144) (k : Fin 256) : EReal := Ideal.div (sexp x n k) (∑ k' : Fin 256, sexp x n k')
/-- The squared length of row `n`, its inner product with row `j` of a matrix. -/
def sqn (x : Tab) (n : Fin 262144) : EReal := ∑ k : Fin 256, x (ix2 n k) * x (ix2 n k)
def cross (x : Tab) (cm : Mat) (n : Fin 262144) (j : Fin 256) : EReal := ∑ k : Fin 256, x (ix2 n k) * cm (ix2 j k)
/-- The constants 2 and −1/10 as the programs spell them (the same words on both sides: never evaluated). -/
def two : EReal := Ideal.ofBits .f32 0x40000000#32
def negTenth : EReal := Ideal.ofBits .f32 0xBDCCCCCD#32
/-- The squared distance expanded, with the matrix rows' squared lengths `q` supplied. -/
def dist2 (x : Tab) (cm : Mat) (q : Row) (n : Fin 262144) (j : Fin 256) : EReal :=
  (sqn x n + q (ix2 0 j)) - two * cross x cm n j
/-- The unnormalised weight and the result. -/
def wgt (x : Tab) (cm : Mat) (q : Row) (n : Fin 262144) (j : Fin 256) : EReal :=
  soft x n j * Ideal.exp (negTenth * Ideal.sqrt (max (dist2 x cm q n j) 0))
def out (x : Tab) (cm : Mat) (q : Row) (n : Fin 262144) (j : Fin 256) : EReal :=
  Ideal.div (wgt x cm q n j) (∑ j' : Fin 256, wgt x cm q n j')

/-- The whole function of the table and the label column. -/
def final (x : Tab) (lab : Lab) : Tab := fun i => out x (meanMat x lab) (sqRow (meanMat x lab)) (i 0) (i 1)

end Cert.Spec

end
-- ==== Proof.Glue.lean ====
/-
  The host arithmetic between the two calls, read at an index.

  The first call leaves, for each half `p` of the rows, the class sums `a[p, c, d]` and the class counts `b[p, 0, c]`.
  The host adds the two halves, turns the counts' row into a column, adds ε, and divides: the class means. It then
  squares the means and sums each class's row: the squared lengths, laid out as a 1 × 256 row. When `a` and `b` are the
  half sums and half counts of the specification these are its `meanMat` and `sqRow`.
-/
import proofs.«113808_j15951508537566_2_alg».proof.Proof.Spec
import proofs.«113808_j15951508537566_2_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.Glue

open Cert.KernelIdeal Cert.KernelIdeal.Gen Idealize.ShloMosaic Idealize.ShloMosaic.ValueIdx

/-- The class means as the host computes them from the two calls' partial sums and counts. -/
def meanOf (a : (⟨S2x256x256, .f32⟩ : BufTy).Contents (Elt Ideal)) (b : (⟨S2x1x256, .f32⟩ : BufTy).Contents (Elt Ideal)) :
    (⟨S256x256, .f32⟩ : BufTy).Contents (Elt Ideal) :=
  Host.divf (F := Ideal)
    (Host.reduceAdd (F := Ideal) a (constant (F := Ideal) S_ .f32 0x00000000#32) reducesTo_S2x256x256_S256x256_d0 h_S_)
    (broadcastInDim S256x256 ![0, 1] bcast_S256x1_S256x256_0_1
      (addf (F := Ideal)
        (transpose S256x1 [1, 0]
          (Host.reduceAdd (F := Ideal) b (constant (F := Ideal) S_ .f32 0x00000000#32) reducesTo_S2x1x256_S1x256_d0 h_S_)
          transposes_S1x256_S256x1_1_0)
        (broadcastInDim S256x1 ![] bcast_S_S256x1 (constant (F := Ideal) S_ .f32 0x322BCC77#32))))

/-- The squared lengths of a matrix's rows as the host computes them, laid out as a row. -/
def sqOf (cm : (⟨S256x256, .f32⟩ : BufTy).Contents (Elt Ideal)) : (⟨S1x256, .f32⟩ : BufTy).Contents (Elt Ideal) :=
  broadcastInDim S1x256 ![1] bcast_S256_S1x256_1
    (Host.reduceAdd (F := Ideal) (mulf (F := Ideal) cm cm) (constant (F := Ideal) S_ .f32 0x00000000#32) reducesTo_S256x256_S256_d1 h_S_)

/-- The sum over the two halves of a `[2, 256, 256]` array, at `(c, d)`. -/
theorem sumHalves3 (a : (⟨S2x256x256, .f32⟩ : BufTy).Contents (Elt Ideal)) (c d : Fin 256) :
    Host.reduceAdd (F := Ideal) a (constant (F := Ideal) S_ .f32 0x00000000#32) reducesTo_S2x256x256_S256x256_d0 h_S_ (ix2 c d)
      = a (ix3 0 c d) + a (ix3 1 c d) := by
  simp only [Host.reduceAdd, Ideal.hostReduceAdd_def]
  rw [Ideal.hostReduceAdd_single reducesTo_S2x256x256_S256x256_d0 (by decide)]
  show Ideal.ofBits .f32 0x00000000#32 + ∑ k : Fin 2, a _ = _
  rw [Ideal.ofBits_zero_f32, zero_add, Fin.sum_univ_two]
  refine congrArg₂ (· + ·) (congrArg a ?_) (congrArg a ?_) <;>
    exact funext fun ax => Fin.ext (by match ax with | ⟨0, _⟩ => rfl | ⟨1, _⟩ => rfl | ⟨2, _⟩ => rfl)

/-- The sum over the two halves of a `[2, 1, 256]` array, at `(0, c)`. -/
theorem sumHalves1 (b : (⟨S2x1x256, .f32⟩ : BufTy).Contents (Elt Ideal)) (c : Fin 256) :
    Host.reduceAdd (F := Ideal) b (constant (F := Ideal) S_ .f32 0x00000000#32) reducesTo_S2x1x256_S1x256_d0 h_S_ (ix2 (0 : Fin 1) c)
      = b (ix3 0 0 c) + b (ix3 1 0 c) := by
  simp only [Host.reduceAdd, Ideal.hostReduceAdd_def]
  rw [Ideal.hostReduceAdd_single reducesTo_S2x1x256_S1x256_d0 (by decide)]
  show Ideal.ofBits .f32 0x00000000#32 + ∑ k : Fin 2, b _ = _
  rw [Ideal.ofBits_zero_f32, zero_add, Fin.sum_univ_two]
  refine congrArg₂ (· + ·) (congrArg b ?_) (congrArg b ?_) <;>
    exact funext fun ax => Fin.ext (by match ax with | ⟨0, _⟩ => rfl | ⟨1, _⟩ => rfl | ⟨2, _⟩ => rfl)

/-- The class means at `(c, d)`: the two halves' sums added, over the two halves' counts added plus ε. -/
theorem meanOf_apply (a : (⟨S2x256x256, .f32⟩ : BufTy).Contents (Elt Ideal)) (b : (⟨S2x1x256, .f32⟩ : BufTy).Contents (Elt Ideal))
    (c d : Fin 256) :
    meanOf a b (ix2 c d) = Ideal.div (a (ix3 0 c d) + a (ix3 1 c d)) ((b (ix3 0 0 c) + b (ix3 1 0 c)) + Cert.Spec.epsv) := by
  unfold meanOf
  show Ideal.div _ _ = _
  rw [sumHalves3]
  refine congrArg (Ideal.div _) ?_
  rw [broadcastInDim_apply _ bcast_S256x1_S256x256_0_1 _ (ix2 c d) (ix2 c (0 : Fin 1)) (fun ax => match ax with
    | ⟨0, _⟩ => by show c.val = if (256 : Nat) = 1 then 0 else c.val; rw [if_neg (by decide)]
    | ⟨1, _⟩ => by show 0 = if (1 : Nat) = 1 then 0 else d.val; rw [if_pos rfl])]
  show _ + _ = _
  rw [transpose_apply [1, 0] _ transposes_S1x256_S256x1_1_0 (ix2 c (0 : Fin 1)) (ix2 (0 : Fin 1) c) (fun bx => match bx with
    | ⟨0, _⟩ => rfl
    | ⟨1, _⟩ => rfl), sumHalves1]
  rfl

/-- With the specification's half sums and half counts, the host's class means are the specification's. -/
theorem meanOf_parts (x : Cert.Spec.Tab) (lab : Cert.Spec.Lab) :
    meanOf (fun i : S2x256x256.Idx => Cert.Spec.partSum x lab (i 0) (i 1) (i 2))
        (fun i : S2x1x256.Idx => Cert.Spec.partCnt lab (i 0) (i 2))
      = Cert.Spec.meanMat x lab := by
  funext i
  obtain ⟨c, d, rfl⟩ : ∃ (c : Fin 256) (d : Fin 256), i = ix2 c d := ⟨i 0, i 1, eq_ix2 i⟩
  rw [meanOf_apply]
  show Ideal.div (Cert.Spec.partSum x lab 0 c d + Cert.Spec.partSum x lab 1 c d)
      ((Cert.Spec.partCnt lab 0 c + Cert.Spec.partCnt lab 1 c) + Cert.Spec.epsv) = Cert.Spec.mean x lab c d
  rw [Cert.Spec.partSum_add, Cert.Spec.partCnt_add]
  rfl

/-- The host's squared lengths are the specification's. -/
theorem sqOf_eq (cm : Cert.Spec.Mat) : sqOf cm = Cert.Spec.sqRow cm := by
  funext i
  obtain ⟨u, j, rfl⟩ : ∃ (u : Fin 1) (j : Fin 256), i = ix2 u j := ⟨i 0, i 1, eq_ix2 i⟩
  unfold sqOf
  rw [broadcastInDim_apply _ bcast_S256_S1x256_1 _ (ix2 u j) (ix1 j) (fun ax => match ax with
    | ⟨0, _⟩ => by show j.val = if (256 : Nat) = 1 then 0 else j.val; rw [if_neg (by decide)])]
  simp only [Host.reduceAdd, Ideal.hostReduceAdd_def]
  rw [Ideal.hostReduceAdd_single reducesTo_S256x256_S256_d1 (by decide)]
  show Ideal.ofBits .f32 0x00000000#32 + ∑ k : Fin 256, (mulf (F := Ideal) cm cm) _ = ∑ k : Fin 256, cm (ix2 j k) * cm (ix2 j k)
  rw [Ideal.ofBits_zero_f32, zero_add]
  refine Finset.sum_congr rfl fun k _ => ?_
  show cm _ * cm _ = _
  have e : ∀ q, q = ix2 j k → cm q * cm q = cm (ix2 j k) * cm (ix2 j k) := fun q hq => by rw [hq]
  exact e _ (funext fun ax => Fin.ext (by match ax with | ⟨0, _⟩ => rfl | ⟨1, _⟩ => rfl))

end Cert.KernelIdeal.Glue

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.KernelRun.lean ====
/-
  The idealized kernel's whole run, with its result array named and computed.

  @main is four segments: a reshape of the labels to a column, the first call (per-class partial sums and counts of the
  two halves of the rows), fourteen host operations (class means and their squared lengths), and the second call (the
  per-row weights). The generated frame proves that every execution ends with every buffer at the contents a fold
  through these segments gives it; read at the result buffer, that fold is: the second call's array function of the table,
  the class means and the squared lengths as the second call finds them, which are the host's functions of the first
  call's arrays, which are the half sums and half counts of the table and the label column. Given the three array
  values (taken here as hypotheses `hS`, `hC`, `hO`: they are proved in their own modules) the result is the
  specification's `final`.
-/
import proofs.«113808_j15951508537566_2_alg».proof.Proof.Spec
import proofs.«113808_j15951508537566_2_alg».proof.Proof.Glue
import proofs.«113808_j15951508537566_2_alg».proof.Proof.LibKeepDims
import proofs.«113808_j15951508537566_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run, with the result buffer named -/

set_option backward.isDefEq.respectTransparency.types false in
/-- Every weakly fair execution of @main terminates, nothing faulting, with the result buffer at the contents the fold
    through the segments gives it (`W4`) and the two arguments as launched. -/
theorem run_named : θ_run defs (onTc (τ := τ) (main (F := Ideal))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c)⟩)

/-! ## The contents the first call finds -/

/-- The table is as launched. -/
theorem V1_arg0 (c : Dev nD) : V1 m ρ c main_arg0 = m ((c : Thread nD τ).loc main_arg0) := by
  show StableHlo.after hostOps0 (W0 m ρ c) (Proc.devRef .tc main_arg0) = _
  after_results <;> rfl

/-- The labels' column holds, at `(n, 0)`, label `n`. -/
theorem V1_v0 (c : Dev nD) : V1 m ρ c main_v0 = Cert.Spec.col (m ((c : Thread nD τ).loc main_arg1)) := by
  show StableHlo.after hostOps0 (W0 m ρ c) (Proc.devRef .tc main_v0) = _
  after_results
  funext i
  obtain ⟨n, u, rfl⟩ : ∃ (n : Fin 262144) (u : Fin 1), i = ix2 n u := ⟨i 0, i 1, eq_ix2 i⟩
  exact KeepDims.shapeCast_a_a1_apply (a := 262144) _ shapeCasts_S262144_S262144x1 n u

/-! ## The first call's arrays, the host's stages, and the result -/

/-- What the three array values say, for every contents `V` a call may be entered from: the first call's first result
    is the half sums, its second the half counts, the second call's result the per-row weights. -/
abbrev SumsValue : Prop :=
  ∀ (V : (c : Dev nD) → (b : Ref sig .tc) → Buf (Elt Ideal) ((c : Thread nD τ).loc b)) (c : Dev nD),
    (dat0 (F := Ideal) V c).arrAt 2 cfg0.N
      = fun i : S2x256x256.Idx => Cert.Spec.partSum (V c main_arg0) (V c main_v0) (i 0) (i 1) (i 2)
abbrev CntsValue : Prop :=
  ∀ (V : (c : Dev nD) → (b : Ref sig .tc) → Buf (Elt Ideal) ((c : Thread nD τ).loc b)) (c : Dev nD),
    (dat0 (F := Ideal) V c).arrAt 3 cfg0.N
      = fun i : S2x1x256.Idx => Cert.Spec.partCnt (V c main_v0) (i 0) (i 2)
abbrev OutValue : Prop :=
  ∀ (V : (c : Dev nD) → (b : Ref sig .tc) → Buf (Elt Ideal) ((c : Thread nD τ).loc b)) (c : Dev nD),
    (dat1 (F := Ideal) V c).arrAt 3 cfg1.N
      = fun i : S262144x256.Idx => Cert.Spec.out (V c main_arg0) (V c main_v8) (V c main_v11) (i 0) (i 1)

/-- After the first call its first result holds the half sums of the launched table by the launched labels. -/
theorem W2_sums (hS : SumsValue) (c : Dev nD) : W2 m ρ c (Proc.devRef .tc main_v1_0)
    = fun i : S2x256x256.Idx => Cert.Spec.partSum (m ((c : Thread nD τ).loc main_arg0))
        (Cert.Spec.col (m ((c : Thread nD τ).loc main_arg1))) (i 0) (i 1) (i 2) := by
  refine (W2_arr m ρ c 2).trans ((hS (V1 m ρ) c).trans ?_)
  rw [V1_arg0, V1_v0]

/-- … and its second result the half counts. -/
theorem W2_cnts (hC : CntsValue) (c : Dev nD) : W2 m ρ c (Proc.devRef .tc main_v1_1)
    = fun i : S2x1x256.Idx => Cert.Spec.partCnt (Cert.Spec.col (m ((c : Thread nD τ).loc main_arg1))) (i 0) (i 2) := by
  refine (W2_arr m ρ c 3).trans ((hC (V1 m ρ) c).trans ?_)
  rw [V1_v0]

/-- The second call finds the table as launched, -/
theorem V3_arg0 (c : Dev nD) : V3 m ρ c main_arg0 = m ((c : Thread nD τ).loc main_arg0) := by
  show StableHlo.after hostOps1 (W2 m ρ c) (Proc.devRef .tc main_arg0) = _
  after_results
  exact ((W2_arr m ρ c 0).trans (((dat0 (V1 m ρ) c).arrAt_in 0 rfl _).trans (A_eq0 (V1 m ρ) c 0))).trans (V1_arg0 m ρ c)

/-- the class means as the host's function of the first call's two results, -/
theorem V3_v8 (c : Dev nD) : V3 m ρ c main_v8
    = Glue.meanOf (W2 m ρ c (Proc.devRef .tc main_v1_0)) (W2 m ρ c (Proc.devRef .tc main_v1_1)) := by
  show StableHlo.after hostOps1 (W2 m ρ c) (Proc.devRef .tc main_v8) = _
  after_results <;> rfl

/-- and their squared lengths as the host's function of the class means. -/
theorem V3_v11 (c : Dev nD) : V3 m ρ c main_v11
    = Glue.sqOf (Glue.meanOf (W2 m ρ c (Proc.devRef .tc main_v1_0)) (W2 m ρ c (Proc.devRef .tc main_v1_1))) := by
  show StableHlo.after hostOps1 (W2 m ρ c) (Proc.devRef .tc main_v11) = _
  after_results <;> rfl

/-- THE RESULT: the result buffer ends at the specification's function of the launched table and labels. -/
theorem value (hS : SumsValue) (hC : CntsValue) (hO : OutValue) (c : Dev nD) : W4 m ρ c (Proc.devRef .tc main_v12)
    = Cert.Spec.final (m ((c : Thread nD τ).loc main_arg0)) (Cert.Spec.col (m ((c : Thread nD τ).loc main_arg1))) := by
  refine (W4_arr m ρ c 3).trans ((hO (V3 m ρ) c).trans ?_)
  rw [V3_v11, V3_v8, V3_arg0, W2_sums m ρ hS c, W2_cnts m ρ hC c, Glue.meanOf_parts, Glue.sqOf_eq]
  rfl

end Cert.KernelIdeal.Whole

end
-- ==== Proof.Assemble.lean ====
/-
  The five claims, from the parts.

  The three frames: the two kernels' are the generated frame certificates; the reference has no kernel, and its frame is
  its run with the result dropped. The idealization rewrote nothing, so `preserves` is `True`. The algebraic claim:
  from memories that agree on the table and the labels, the idealized kernel's run ends with its result at the
  specification's `final` of the table and the label column (the kernel's whole run), and so does the reference's
  (its generated run, whose result term is the specification's `final`). The array values of the two calls and of the
  reference are taken as hypotheses here and supplied where the claim is assembled.
-/
import proofs.«113808_j15951508537566_2_alg».proof.Defs
import proofs.«113808_j15951508537566_2_alg».proof.Proof.Spec
import proofs.«113808_j15951508537566_2_alg».proof.Proof.KernelRun
import proofs.«113808_j15951508537566_2_alg».proof.Proof.Gen.Kernel.Frame
import proofs.«113808_j15951508537566_2_alg».proof.Proof.Gen.KernelIdeal.Frame
import proofs.«113808_j15951508537566_2_alg».proof.Proof.Gen.ReferenceIdeal.Run
import proofs.«113808_j15951508537566_2_alg».proof.Proof.Gen.ReferenceIdeal.Read
import proofs.«113808_j15951508537566_2_alg».proof.Proof.Gen.Pre_finite_inputs

noncomputable section

namespace Cert.Proof.Parts

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

section
open Cert.KernelIdeal Cert.KernelIdeal.Gen in
/-- Both programs end at the specification's function of the table and the label column. -/
theorem algebraic
    (hS : Cert.KernelIdeal.Whole.SumsValue) (hC : Cert.KernelIdeal.Whole.CntsValue) (hO : Cert.KernelIdeal.Whole.OutValue)
    (hR : ∀ (x0 : (⟨Cert.ReferenceIdeal.S262144x256, .f32⟩ : BufTy).Contents (Elt Ideal))
        (x1 : (⟨Cert.ReferenceIdeal.S262144, .i32⟩ : BufTy).Contents (Elt Ideal)),
      Cert.ReferenceIdeal.Read.val_main_v49 (F := Ideal) x0 x1 = Cert.Spec.final x0 (Cert.Spec.col x1)) :
    Cert.algebraic_KernelIdeal_ReferenceIdeal := by
  intro m ρ m' ρ' _ hagree
  refine ⟨fun c => Cert.Spec.final (m ((c.tc : Thread nD τ).loc main_arg0)) (Cert.Spec.col (m ((c.tc : Thread nD τ).loc main_arg1))), ?_, ?_⟩
  · exact (θ_run Cert.KernelIdeal.defs _ _).mono
      (fun _ h c => ⟨(h c).1.trans (Cert.KernelIdeal.Whole.value m ρ hS hC hO c), (h c).2⟩)
      (Cert.KernelIdeal.Whole.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, hR, (hagree c).1, (hagree c).2]
end

end Cert.Proof.Parts

end
-- ==== Proof.AccPieces.lean ====
/-
  One step of the accumulation, as the values it stores.

  The body keeps two running buffers: a 256 × 256 table of per-class channel sums and a row of 256 per-class counts.
  At the first step of a half of the rows it clears both and then adds the current block's contribution; at every
  other step it adds the block's contribution to what the buffers already hold. Each of the four cases (two buffers,
  first step or not) is identified here with one closed expression in the block of 4096 rows, its 4096 label words
  and the old buffer contents (the zero block at a first step).
-/
import proofs.«113808_j15951508537566_2_alg».proof.Proof.Spec
import proofs.«113808_j15951508537566_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Away from the first step of a half, the body leaves in the sums' buffer the old contents plus the block's
    class-by-channel products. -/
theorem out_B_2 (c : Dev nD) (i : grid0.Coords) (a2 : Memref sig .tc .vmem S4096x256 .f32) (h2 : a2.IsWhole) (a3 : Memref sig .tc .vmem S4096x1 .i32) (h3 : a3.IsWhole) (a4 : Memref sig .tc .vmem S1x256x256 .f32) (h4 : a4.IsWhole) (a5 : Memref sig .tc .vmem S1x1x256 .f32) (h5 : a5.IsWhole) (hc : ¬cond0_0 i)
    (x0 : Vec F S4096x256 .f32) (x1 : Vec F S4096x1 .i32) (xo2 : Vec F S1x256x256 .f32) (xo3 : Vec F S1x1x256 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h3.read_unread, h4.read_unread, View.ld_unit_zero (S := S4096x256) hz2,
    View.ld_unit_zero (S := S4096x1) hz2, View.ld_unit_zero (S := S1x256x256) hz3]

/-- and in the counts' buffer the old contents plus the block's class counts. -/
theorem out_B_3 (c : Dev nD) (i : grid0.Coords) (a2 : Memref sig .tc .vmem S4096x256 .f32) (h2 : a2.IsWhole) (a3 : Memref sig .tc .vmem S4096x1 .i32) (h3 : a3.IsWhole) (a4 : Memref sig .tc .vmem S1x256x256 .f32) (h4 : a4.IsWhole) (a5 : Memref sig .tc .vmem S1x1x256 .f32) (h5 : a5.IsWhole) (hc : ¬cond0_0 i)
    (x0 : Vec F S4096x256 .f32) (x1 : Vec F S4096x1 .i32) (xo2 : Vec F S1x256x256 .f32) (xo3 : Vec F S1x1x256 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz3]
  simp only [View.readAt_eq_ld, h2.read_unread, h3.read_unread, h5.read_unread, View.ld_unit_zero (S := S4096x256) hz2,
    View.ld_unit_zero (S := S4096x1) hz2, View.ld_unit_zero (S := S1x1x256) hz3]

/-- At the first step of a half the buffers are zeroed first. -/
theorem out_A_2 (c : Dev nD) (i : grid0.Coords) (a2 : Memref sig .tc .vmem S4096x256 .f32) (h2 : a2.IsWhole) (a3 : Memref sig .tc .vmem S4096x1 .i32) (h3 : a3.IsWhole) (a4 : Memref sig .tc .vmem S1x256x256 .f32) (h4 : a4.IsWhole) (a5 : Memref sig .tc .vmem S1x1x256 .f32) (h5 : a5.IsWhole) (hc : cond0_0 i)
    (x0 : Vec F S4096x256 .f32) (x1 : Vec F S4096x1 .i32) :
    out0_A_2 c i a2 h2 a3 h3 a4 h4 a5 h5 hc x0 x1 = k0_pay4 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x256x256) hz3, View.readCov_unit_zero (S := S1x256x256) _ hz3]
  simp only [View.readAt_eq_ld, h2.read_unread, h3.read_unread, View.ld_unit_zero (S := S4096x256) hz2,
    View.ld_unit_zero (S := S4096x1) hz2]

theorem out_A_3 (c : Dev nD) (i : grid0.Coords) (a2 : Memref sig .tc .vmem S4096x256 .f32) (h2 : a2.IsWhole) (a3 : Memref sig .tc .vmem S4096x1 .i32) (h3 : a3.IsWhole) (a4 : Memref sig .tc .vmem S1x256x256 .f32) (h4 : a4.IsWhole) (a5 : Memref sig .tc .vmem S1x1x256 .f32) (h5 : a5.IsWhole) (hc : cond0_0 i)
    (x0 : Vec F S4096x256 .f32) (x1 : Vec F S4096x1 .i32) :
    out0_A_3 c i a2 h2 a3 h3 a4 h4 a5 h5 hc x0 x1 = k0_pay5 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, View.ld_unit_zero (S := S4096x256) hz2,
    View.ld_unit_zero (S := S4096x1) hz2]

end Cert.KernelIdeal.Acc
end
-- ==== Proof.AccOnehot.lean ====
/-
  The indicator of a class on a block of labels.

  A block is 4096 consecutive rows of the table together with their 4096 label words. For a row r of the block and a
  class c (0 ≤ c < 256) the indicator is 1 when the row's label word is the 32-bit word of c, and 0 otherwise. The
  body forms it by comparing the label column, spread over 256 lanes, with the lane number and turning the one-bit
  answer into a number; read at (r, c) that is exactly the indicator. Also: the 16-bit word 0x3F80 is the number 1.
-/
import proofs.«113808_j15951508537566_2_alg».proof.Proof.Spec
import proofs.«113808_j15951508537566_2_alg».proof.Proof.LibKeepDims
import proofs.«113808_j15951508537566_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen

/-- Whether row `r` of a block of label words carries the word of class `c`, as 1 or 0. -/
def ind (lab : S4096x1.Idx → BitVec 32) (r : Fin 4096) (c : Fin 256) : EReal :=
  if lab (ix2 r 0) = BitVec.ofNat 32 c.val then 1 else 0

theorem cmpi_eq_ite (x y : BitVec 32) : IntOp.cmpi .eq x y = if x = y then 1#1 else 0#1 := by
  unfold IntOp.cmpi
  by_cases h : x = y
  · simp [h]
  · rw [if_neg h]
    show BitVec.ofBool (x == y) = 0#1
    rw [beq_false_of_ne h]; rfl

theorem sitofp_one : FloatOps.sitofp (F := Ideal) .f32 ((1#1 : BitVec 1).setWidth 32) = (1 : EReal) := by
  show (((BitVec.setWidth 32 1#1).toInt : ℝ) : EReal) = 1
  rw [show (BitVec.setWidth 32 1#1).toInt = 1 from by decide]
  simp
theorem sitofp_zero : FloatOps.sitofp (F := Ideal) .f32 ((0#1 : BitVec 1).setWidth 32) = (0 : EReal) := by
  show (((BitVec.setWidth 32 0#1).toInt : ℝ) : EReal) = 0
  rw [show (BitVec.setWidth 32 0#1).toInt = 0 from by decide]
  simp

/-- The one-hot block: entry (r, c) is 1 when row r's label is the word of c, else 0. -/
theorem onehot_apply (v4 : Vec Ideal S4096x1 .i32) (r : Fin 4096) (c : Fin 256) :
    k0_pay3 (F := Ideal) v4 (ix2 r c) = ind v4 r c := by
  unfold k0_pay3
  show FloatOps.sitofp (F := Ideal) .f32 ((IntOp.cmpi .eq (broadcastTo S4096x256 (shapeCast S4096x1 v4 shapeCasts_S4096x1_S4096x1) broadcasts_S4096x1_S4096x256 (ix2 r c)) (iota .tc S4096x256 32 [1] iota_S4096x256_d1_w32 (ix2 r c))).setWidth 32) = _
  have e1 : broadcastTo S4096x256 (shapeCast S4096x1 v4 shapeCasts_S4096x1_S4096x1) broadcasts_S4096x1_S4096x256 (ix2 r c) = v4 (ix2 r 0) := by
    refine (KeepDims.broadcastTo_a1_ab_apply _ _ r c).trans ?_
    rw [shapeCast_self]
  have e2 : iota .tc S4096x256 32 [1] iota_S4096x256_d1_w32 (ix2 r c) = BitVec.ofNat 32 c.val :=
    iota_single_apply .tc S4096x256 32 1 iota_S4096x256_d1_w32 (ix2 r c)
  rw [e1, e2, cmpi_eq_ite]
  unfold ind
  by_cases h : v4 (ix2 r 0) = BitVec.ofNat 32 c.val
  · rw [if_pos h, if_pos h]; exact sitofp_one
  · rw [if_neg h, if_neg h]; exact sitofp_zero

theorem bf16_one : Ideal.ofBits .bf16 0x3F80#16 = 1 := by
  simp [Ideal.ofBits, Ideal.ieee]
  rw [← EReal.coe_mul]
  norm_num

end Cert.KernelIdeal.Acc
end
-- ==== Proof.AccBody.lean ====
/-
  The two products of a step, entry by entry.

  With e[r, c] the indicator of a block and x[r, d] the block's entries: the first product contracts the 4096 rows of
  the indicator against the rows of the block, so its entry (c, d) is ∑ r, e[r, c] · x[r, d], the sum of channel d
  over the block's rows of class c; the second multiplies a row of 4096 ones into the indicator, so its entry c is
  ∑ r, e[r, c], the number of the block's rows of class c. A step's new buffer contents at an entry are the old
  contents there plus these sums; the cleared buffers read 0 everywhere.
-/
import proofs.«113808_j15951508537566_2_alg».proof.Proof.Spec
import proofs.«113808_j15951508537566_2_alg».proof.Proof.LibKeepDims
import proofs.«113808_j15951508537566_2_alg».proof.Proof.Gen.KernelIdeal.Frame
import proofs.«113808_j15951508537566_2_alg».proof.Proof.AccOnehot
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen

/-- The two block products' dimension numbers: rows contracted against rows; a row of ones against the block. -/
abbrev D1 := dot_S4096x256_S4096x256_S256x256_0_0_1_1_n_n
abbrev D2 := dot_S1x4096_S4096x256_S1x256_1_0_0_1_n_n

theorem lhs1_0 (j : S256x256.Idx) (q : D1.contr.Idx) : (D1.lhsIdx j q 0).val = (q ⟨0, by decide⟩).val :=
  D1.lhsIdx_val_of_single rfl j q
theorem lhs1_1 (j : S256x256.Idx) (q : D1.contr.Idx) : (D1.lhsIdx j q 1).val = (j 0).val := by
  unfold DotDims.lhsIdx
  rw [dif_neg (show ¬(1 : Fin S4096x256.rank) ∈ D1.lhsBatch by decide), dif_pos (show (1 : Fin S4096x256.rank) ∈ D1.lhsNonContracting by decide)]
  rfl
theorem rhs1_0 (j : S256x256.Idx) (q : D1.contr.Idx) : (D1.rhsIdx j q 0).val = (q ⟨0, by decide⟩).val :=
  D1.rhsIdx_val_of_single rfl j q
theorem rhs1_1 (j : S256x256.Idx) (q : D1.contr.Idx) : (D1.rhsIdx j q 1).val = (j 1).val := by
  unfold DotDims.rhsIdx
  rw [dif_neg (show ¬(1 : Fin S4096x256.rank) ∈ D1.rhsBatch by decide), dif_pos (show (1 : Fin S4096x256.rank) ∈ D1.rhsNonContracting by decide)]
  rfl

/-- The product contracting the rows: entry (c, d) is the sum over the rows r of A[r, c] · B[r, d]. -/
theorem matmul1_apply (A B : FVec Ideal S4096x256 .bf16) (c d : Fin 256) :
    FloatOps.matmul D1 none A B (constant S256x256 .f32 0x00000000#32) (ix2 c d) = ∑ r : Fin 4096, A (ix2 r c) * B (ix2 r d) := by
  rw [Ideal.matmul_constant_zero_apply, ← Equiv.sum_comp (contrEquiv1 D1 4096 rfl rfl).symm]
  refine Finset.sum_congr rfl fun k _ => ?_
  have hk := contrEquiv1_symm_val D1 4096 rfl rfl k
  have el : D1.lhsIdx (ix2 c d) ((contrEquiv1 D1 4096 rfl rfl).symm k) = ix2 k c := funext fun a => Fin.ext (by
    match a with
    | ⟨0, _⟩ => exact (lhs1_0 _ _).trans hk
    | ⟨1, _⟩ => exact lhs1_1 _ _)
  have er : D1.rhsIdx (ix2 c d) ((contrEquiv1 D1 4096 rfl rfl).symm k) = ix2 k d := funext fun a => Fin.ext (by
    match a with
    | ⟨0, _⟩ => exact (rhs1_0 _ _).trans hk
    | ⟨1, _⟩ => exact rhs1_1 _ _)
  rw [el, er]

theorem lhs2_0 (j : S1x256.Idx) (q : D2.contr.Idx) : (D2.lhsIdx j q 0).val = (j 0).val := by
  unfold DotDims.lhsIdx
  rw [dif_neg (show ¬(0 : Fin S1x4096.rank) ∈ D2.lhsBatch by decide), dif_pos (show (0 : Fin S1x4096.rank) ∈ D2.lhsNonContracting by decide)]
  rfl
theorem lhs2_1 (j : S1x256.Idx) (q : D2.contr.Idx) : (D2.lhsIdx j q 1).val = (q ⟨0, by decide⟩).val :=
  D2.lhsIdx_val_of_single rfl j q
theorem rhs2_0 (j : S1x256.Idx) (q : D2.contr.Idx) : (D2.rhsIdx j q 0).val = (q ⟨0, by decide⟩).val :=
  D2.rhsIdx_val_of_single rfl j q
theorem rhs2_1 (j : S1x256.Idx) (q : D2.contr.Idx) : (D2.rhsIdx j q 1).val = (j 1).val := by
  unfold DotDims.rhsIdx
  rw [dif_neg (show ¬(1 : Fin S4096x256.rank) ∈ D2.rhsBatch by decide), dif_pos (show (1 : Fin S4096x256.rank) ∈ D2.rhsNonContracting by decide)]
  rfl

/-- A row against the block: entry (w, c) is the sum over the rows r of A[w, r] · B[r, c]. -/
theorem matmul2_apply (A : FVec Ideal S1x4096 .bf16) (B : FVec Ideal S4096x256 .bf16) (w : Fin 1) (c : Fin 256) :
    FloatOps.matmul D2 none A B (constant S1x256 .f32 0x00000000#32) (ix2 w c) = ∑ r : Fin 4096, A (ix2 w r) * B (ix2 r c) := by
  rw [Ideal.matmul_constant_zero_apply, ← Equiv.sum_comp (contrEquiv1 D2 4096 rfl rfl).symm]
  refine Finset.sum_congr rfl fun k _ => ?_
  have hk := contrEquiv1_symm_val D2 4096 rfl rfl k
  have el : D2.lhsIdx (ix2 w c) ((contrEquiv1 D2 4096 rfl rfl).symm k) = ix2 w k := funext fun a => Fin.ext (by
    match a with
    | ⟨0, _⟩ => exact lhs2_0 _ _
    | ⟨1, _⟩ => exact (lhs2_1 _ _).trans hk)
  have er : D2.rhsIdx (ix2 w c) ((contrEquiv1 D2 4096 rfl rfl).symm k) = ix2 k c := funext fun a => Fin.ext (by
    match a with
    | ⟨0, _⟩ => exact (rhs2_0 _ _).trans hk
    | ⟨1, _⟩ => exact rhs2_1 _ _)
  rw [el, er]

/-- The value stored for the sums at (u, c, d): the old contents there plus the block's rows of class c at channel d. -/
theorem pay4_apply (v3 : Vec Ideal S4096x256 .f32) (v4 : Vec Ideal S4096x1 .i32) (v13 : Vec Ideal S1x256x256 .f32)
    (u : Fin 1) (c d : Fin 256) :
    k0_pay4 (F := Ideal) v3 v4 v13 (ix3 u c d) = v13 (ix3 (0 : Fin 1) c d) + ∑ r : Fin 4096, ind v4 r c * v3 (ix2 r d) := by
  unfold k0_pay4
  refine (shapeCast_ab_1ab_apply _ _ u c d).trans ?_
  refine congrArg₂ (· + ·) (shapeCast_1ab_ab_apply v13 _ c d) ?_
  refine (matmul1_apply _ _ c d).trans ?_
  exact Finset.sum_congr rfl fun r _ => congrArg₂ (· * ·) (onehot_apply v4 r c) rfl

/-- The value stored for the counts at (u, w, c): the old contents there plus the number of the block's rows of class c. -/
theorem pay5_apply (v4 : Vec Ideal S4096x1 .i32) (v21 : Vec Ideal S1x1x256 .f32) (u w : Fin 1) (c : Fin 256) :
    k0_pay5 (F := Ideal) v4 v21 (ix3 u w c) = v21 (ix3 (0 : Fin 1) w c) + ∑ r : Fin 4096, ind v4 r c := by
  unfold k0_pay5
  refine (shapeCast_ab_1ab_apply _ _ u w c).trans ?_
  refine congrArg₂ (· + ·) (shapeCast_1ab_ab_apply v21 _ w c) ?_
  refine (matmul2_apply _ _ w c).trans ?_
  refine Finset.sum_congr rfl fun r _ => ?_
  refine (congrArg₂ (· * ·) (show broadcast S1x4096 (Scalar.ofBits (F := Ideal) .bf16 0x3F80#16) (ix2 w r) = (1 : EReal) from bf16_one) (onehot_apply v4 r c)).trans ?_
  exact one_mul _

/-- The zero blocks read 0 everywhere. -/
theorem pay1_apply (y : S1x256x256.Idx) : k0_pay1 (F := Ideal) y = 0 := by
  unfold k0_pay1
  rw [eq_ix3 y]
  refine (shapeCast_ab_1ab_apply _ _ _ _ _).trans ?_
  exact Ideal.ofBits_zero_f32
theorem pay2_apply (y : S1x1x256.Idx) : k0_pay2 (F := Ideal) y = 0 := by
  unfold k0_pay2
  rw [eq_ix3 y]
  refine (shapeCast_ab_1ab_apply _ _ _ _ _).trans ?_
  exact Ideal.ofBits_zero_f32

end Cert.KernelIdeal.Acc
end
-- ==== Proof.AccStep.lean ====
/-
  A step in terms of the whole table.

  Block T consists of rows T·4096 … T·4096 + 4095 of the table and of the label column. Since (1 or 0) · x is x or 0
  in the extended reals for every x, the block's indicator-weighted sum of channel d for class c is the sum, over that
  range of naturals n, of row n's contribution `Spec.term`, and the block's count of class c is the sum of
  `Spec.unit`. Hence a first step leaves the sums over the block's range, and a later step turns sums over
  a … T·4096 − 1 into sums over a … T·4096 + 4095 (sums over consecutive ranges add).
-/
import proofs.«113808_j15951508537566_2_alg».proof.Proof.Spec
import proofs.«113808_j15951508537566_2_alg».proof.Proof.LibKeepDims
import proofs.«113808_j15951508537566_2_alg».proof.Proof.Gen.KernelIdeal.Frame
import proofs.«113808_j15951508537566_2_alg».proof.Proof.AccBody
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen

/-- The rows of block `T` (rows `T·4096 … T·4096 + 4095` of the table `X` and the label column `L`), summed by class:
    the block's one-hot weighted sum is the sum of the rows' contributions over that range of naturals. -/
theorem block_sum (X : Cert.Spec.Tab) (L : Cert.Spec.Lab) (T : ℕ) (hT : T * 4096 + 4096 ≤ 262144)
    (x0 : S4096x256.Idx → EReal) (x1 : S4096x1.Idx → BitVec 32)
    (h0 : ∀ (r : Fin 4096) (d : Fin 256), x0 (ix2 r d) = X (ix2 ⟨T * 4096 + r.val, by have := r.isLt; omega⟩ d))
    (h1 : ∀ r : Fin 4096, x1 (ix2 r 0) = L (ix2 ⟨T * 4096 + r.val, by have := r.isLt; omega⟩ 0))
    (c d : Fin 256) :
    ∑ r : Fin 4096, ind x1 r c * x0 (ix2 r d) = ∑ n ∈ Finset.Ico (T * 4096) (T * 4096 + 4096), Cert.Spec.term X L c d n := by
  rw [Finset.sum_Ico_eq_sum_range, show T * 4096 + 4096 - T * 4096 = 4096 by omega,
    ← Fin.sum_univ_eq_sum_range (fun k => Cert.Spec.term X L c d (T * 4096 + k)) 4096]
  refine Finset.sum_congr rfl fun r _ => ?_
  have hr : T * 4096 + r.val < 262144 := by have := r.isLt; omega
  unfold ind Cert.Spec.term
  rw [dif_pos hr, h0, h1, ite_mul, one_mul, zero_mul]

/-- and the block's count of a class is the sum of the rows' unit contributions. -/
theorem block_cnt (L : Cert.Spec.Lab) (T : ℕ) (hT : T * 4096 + 4096 ≤ 262144)
    (x1 : S4096x1.Idx → BitVec 32)
    (h1 : ∀ r : Fin 4096, x1 (ix2 r 0) = L (ix2 ⟨T * 4096 + r.val, by have := r.isLt; omega⟩ 0))
    (c : Fin 256) :
    ∑ r : Fin 4096, ind x1 r c = ∑ n ∈ Finset.Ico (T * 4096) (T * 4096 + 4096), Cert.Spec.unit L c n := by
  rw [Finset.sum_Ico_eq_sum_range, show T * 4096 + 4096 - T * 4096 = 4096 by omega,
    ← Fin.sum_univ_eq_sum_range (fun k => Cert.Spec.unit L c (T * 4096 + k)) 4096]
  refine Finset.sum_congr rfl fun r _ => ?_
  have hr : T * 4096 + r.val < 262144 := by have := r.isLt; omega
  unfold ind Cert.Spec.unit
  rw [dif_pos hr, h1]

/-- THE FIRST STEP OF A HALF: from zeroed buffers the body leaves the block's sums and counts. -/
theorem step_A (X : Cert.Spec.Tab) (L : Cert.Spec.Lab) (T : ℕ) (hT : T * 4096 + 4096 ≤ 262144)
    (x0 : Vec Ideal S4096x256 .f32) (x1 : Vec Ideal S4096x1 .i32)
    (h0 : ∀ (r : Fin 4096) (d : Fin 256), x0 (ix2 r d) = X (ix2 ⟨T * 4096 + r.val, by have := r.isLt; omega⟩ d))
    (h1 : ∀ r : Fin 4096, x1 (ix2 r 0) = L (ix2 ⟨T * 4096 + r.val, by have := r.isLt; omega⟩ 0)) :
    (∀ (u : Fin 1) (c d : Fin 256), k0_pay4 (F := Ideal) x0 x1 (k0_pay1 (F := Ideal)) (ix3 u c d)
        = ∑ n ∈ Finset.Ico (T * 4096) (T * 4096 + 4096), Cert.Spec.term X L c d n)
    ∧ (∀ (u w : Fin 1) (c : Fin 256), k0_pay5 (F := Ideal) x1 (k0_pay2 (F := Ideal)) (ix3 u w c)
        = ∑ n ∈ Finset.Ico (T * 4096) (T * 4096 + 4096), Cert.Spec.unit L c n) := by
  refine ⟨fun u c d => ?_, fun u w c => ?_⟩
  · rw [pay4_apply x0 x1 (k0_pay1 (F := Ideal)) u c d, pay1_apply, zero_add]
    exact block_sum X L T hT x0 x1 h0 h1 c d
  · rw [pay5_apply x1 (k0_pay2 (F := Ideal)) u w c, pay2_apply, zero_add]
    exact block_cnt L T hT x1 h1 c

/-- A LATER STEP: buffers holding the sums and counts of the rows `a … T·4096 − 1` are left holding those of the rows
    `a … T·4096 + 4095`. -/
theorem step_B (X : Cert.Spec.Tab) (L : Cert.Spec.Lab) (T : ℕ) (hT : T * 4096 + 4096 ≤ 262144)
    (x0 : Vec Ideal S4096x256 .f32) (x1 : Vec Ideal S4096x1 .i32)
    (h0 : ∀ (r : Fin 4096) (d : Fin 256), x0 (ix2 r d) = X (ix2 ⟨T * 4096 + r.val, by have := r.isLt; omega⟩ d))
    (h1 : ∀ r : Fin 4096, x1 (ix2 r 0) = L (ix2 ⟨T * 4096 + r.val, by have := r.isLt; omega⟩ 0))
    (xo2 : Vec Ideal S1x256x256 .f32) (xo3 : Vec Ideal S1x1x256 .f32) (a : ℕ) (ha : a ≤ T * 4096)
    (ho2 : ∀ (u : Fin 1) (c d : Fin 256), xo2 (ix3 u c d) = ∑ n ∈ Finset.Ico a (T * 4096), Cert.Spec.term X L c d n)
    (ho3 : ∀ (u w : Fin 1) (c : Fin 256), xo3 (ix3 u w c) = ∑ n ∈ Finset.Ico a (T * 4096), Cert.Spec.unit L c n) :
    (∀ (u : Fin 1) (c d : Fin 256), k0_pay4 (F := Ideal) x0 x1 xo2 (ix3 u c d)
        = ∑ n ∈ Finset.Ico a (T * 4096 + 4096), Cert.Spec.term X L c d n)
    ∧ (∀ (u w : Fin 1) (c : Fin 256), k0_pay5 (F := Ideal) x1 xo3 (ix3 u w c)
        = ∑ n ∈ Finset.Ico a (T * 4096 + 4096), Cert.Spec.unit L c n) := by
  refine ⟨fun u c d => ?_, fun u w c => ?_⟩
  · rw [pay4_apply x0 x1 xo2 u c d, ho2, block_sum X L T hT x0 x1 h0 h1 c d]
    exact Finset.sum_Ico_consecutive _ ha (by omega)
  · rw [pay5_apply x1 xo3 u w c, ho3, block_cnt L T hT x1 h1 c]
    exact Finset.sum_Ico_consecutive _ ha (by omega)

end Cert.KernelIdeal.Acc
end
-- ==== Proof.AccInv.lean ====
/-
  What the running buffers hold after each step.

  The 64 steps go through the blocks in order: step n = 32·p + i (p the half, 0 ≤ i < 32) reads block n, and the
  steps with i = 0 clear the buffers first. By induction on n: after step n the sums' buffer holds at (c, d) the sum
  of the contributions of rows p·131072 … n·4096 + 4095 to class c at channel d, and the counts' buffer holds at c
  the number of those rows of class c.
-/
import proofs.«113808_j15951508537566_2_alg».proof.Proof.Spec
import proofs.«113808_j15951508537566_2_alg».proof.Proof.LibKeepDims
import proofs.«113808_j15951508537566_2_alg».proof.Proof.Gen.KernelIdeal.Frame
import proofs.«113808_j15951508537566_2_alg».proof.Proof.AccPieces
import proofs.«113808_j15951508537566_2_alg».proof.Proof.AccStep
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen

variable (V : (c : Dev nD) → (b : Ref sig .tc) → Buf (Elt Ideal) ((c : Thread nD τ).loc b))

/-- The index maps over the grid: inputs' block row is the point's number; outputs' block is the half. -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)

theorem lt64 (t : Fin cfg0.N) : t.val < 64 := lt_of_lt_of_eq t.isLt (show cfg0.N = 64 from N_0)

/-- The table's block at point `t` reads rows `t·4096 + r`. -/
theorem iblk0_0_apply (c : Dev nD) (t : Fin cfg0.N) (r : Fin 4096) (d : Fin 256) :
    (iblk0 V c 0 t : Vec Ideal S4096x256 .f32) (ix2 r d)
      = (V c main_arg0 : Cert.Spec.Tab) (ix2 ⟨t.val * 4096 + r.val, by have := lt64 t; have := r.isLt; omega⟩ d) := by
  unfold iblk0
  rw [View.read_apply]
  show V c main_arg0 _ = V c main_arg0 _
  congr 1
  funext a
  apply Fin.ext
  match a with
  | ⟨0, _⟩ => show win0_0.index t 0 * 4096 + 1 * r.val = t.val * 4096 + r.val; rw [(index0_0 t).1]; omega
  | ⟨1, _⟩ => show win0_0.index t 1 * 256 + 1 * d.val = d.val; rw [(index0_0 t).2]; omega

/-- The label column's block at point `t` likewise. -/
theorem iblk0_1_apply (c : Dev nD) (t : Fin cfg0.N) (r : Fin 4096) :
    (iblk0 V c 1 t : Vec Ideal S4096x1 .i32) (ix2 r 0)
      = (V c main_v0 : Cert.Spec.Lab) (ix2 ⟨t.val * 4096 + r.val, by have := lt64 t; have := r.isLt; omega⟩ 0) := by
  unfold iblk0
  rw [View.read_apply]
  show V c main_v0 _ = V c main_v0 _
  congr 1
  funext a
  apply Fin.ext
  match a with
  | ⟨0, _⟩ => show win0_1.index t 0 * 4096 + 1 * r.val = t.val * 4096 + r.val; rw [(index0_1 t).1]; omega
  | ⟨1, _⟩ => show win0_1.index t 1 * 1 + 1 * 0 = 0; rw [(index0_1 t).2]

/-- What the carried buffers hold after point `n`: the sums and the counts of the rows from the start of the point's half
    through the end of its block. -/
def Inv (c : Dev nD) (n : ℕ) (h : n < cfg0.N) : Prop :=
  (∀ (u : Fin 1) (cc d : Fin 256), (outsAt0 V c n h).1 (ix3 u cc d)
      = ∑ k ∈ Finset.Ico (n / 32 * 131072) (n * 4096 + 4096), Cert.Spec.term (V c main_arg0) (V c main_v0) cc d k)
  ∧ (∀ (u w : Fin 1) (cc : Fin 256), (outsAt0 V c n h).2 (ix3 u w cc)
      = ∑ k ∈ Finset.Ico (n / 32 * 131072) (n * 4096 + 4096), Cert.Spec.unit (V c main_v0) cc k)

/-- The buffers after a first point of a half, as the values the body stores there from the point's blocks; -/
theorem outs_A (c : Dev nD) (t : Fin cfg0.N) (h0 : t.val % 32 = 0) :
    outsAt0 V c t.val t.isLt
      = (k0_pay4 (iblk0 V c 0 t) (iblk0 V c 1 t) (k0_pay1 (F := Ideal)), k0_pay5 (iblk0 V c 1 t) (k0_pay2 (F := Ideal))) := by
  rw [outsAt0_A V c t h0]
  exact congrArg₂ Prod.mk
    (out_A_2 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t))
    (out_A_3 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t))

/-- and after any other point, over what the point before left. -/
theorem outs_B (c : Dev nD) (t : Fin cfg0.N) (h0 : ¬t.val % 32 = 0) :
    outsAt0 V c t.val t.isLt
      = (k0_pay4 (iblk0 V c 0 t) (iblk0 V c 1 t) (outsAt0 V c (t.val - 1) (Nat.lt_of_le_of_lt (Nat.sub_le _ _) t.isLt)).1,
         k0_pay5 (iblk0 V c 1 t) (outsAt0 V c (t.val - 1) (Nat.lt_of_le_of_lt (Nat.sub_le _ _) t.isLt)).2) := by
  rw [outsAt0_B V c t h0]
  exact congrArg₂ Prod.mk
    (out_B_2 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
      (outsAt0 V c (t.val - 1) (Nat.lt_of_le_of_lt (Nat.sub_le _ _) t.isLt)).1 (outsAt0 V c (t.val - 1) (Nat.lt_of_le_of_lt (Nat.sub_le _ _) t.isLt)).2)
    (out_B_3 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
      (outsAt0 V c (t.val - 1) (Nat.lt_of_le_of_lt (Nat.sub_le _ _) t.isLt)).1 (outsAt0 V c (t.val - 1) (Nat.lt_of_le_of_lt (Nat.sub_le _ _) t.isLt)).2)

theorem inv_A (c : Dev nD) (t : Fin cfg0.N) (h0 : t.val % 32 = 0) : Inv V c t.val t.isLt := by
  have hN := lt64 t
  unfold Inv
  rw [outs_A V c t h0, show t.val / 32 * 131072 = t.val * 4096 by omega]
  exact step_A (V c main_arg0) (V c main_v0) t.val (by omega) (iblk0 V c 0 t) (iblk0 V c 1 t)
    (iblk0_0_apply V c t) (iblk0_1_apply V c t)

theorem inv_B (c : Dev nD) (t : Fin cfg0.N) (h0 : ¬t.val % 32 = 0)
    (ih : Inv V c (t.val - 1) (Nat.lt_of_le_of_lt (Nat.sub_le _ _) t.isLt)) : Inv V c t.val t.isLt := by
  have hN := lt64 t
  unfold Inv at ih ⊢
  rw [outs_B V c t h0]
  have e1 : (t.val - 1) / 32 * 131072 = t.val / 32 * 131072 := by omega
  have e2 : (t.val - 1) * 4096 + 4096 = t.val * 4096 := by omega
  rw [e1, e2] at ih
  exact step_B (V c main_arg0) (V c main_v0) t.val (by omega) (iblk0 V c 0 t) (iblk0 V c 1 t)
    (iblk0_0_apply V c t) (iblk0_1_apply V c t)
    (outsAt0 V c (t.val - 1) (Nat.lt_of_le_of_lt (Nat.sub_le _ _) t.isLt)).1
    (outsAt0 V c (t.val - 1) (Nat.lt_of_le_of_lt (Nat.sub_le _ _) t.isLt)).2
    (t.val / 32 * 131072) (by omega) ih.1 ih.2

/-- THE INVARIANT, by induction on the point. -/
theorem inv (c : Dev nD) : ∀ (n : ℕ) (h : n < cfg0.N), Inv V c n h := by
  intro n
  induction n with
  | zero => intro h; exact inv_A V c ⟨0, h⟩ rfl
  | succ n ih =>
    intro h
    by_cases h0 : (n + 1) % 32 = 0
    · exact inv_A V c ⟨n + 1, h⟩ h0
    · exact inv_B V c ⟨n + 1, h⟩ h0 (ih (Nat.lt_of_succ_lt h))

end Cert.KernelIdeal.Acc
end
-- ==== Proof.AccFlush.lean ====
/-
  What is written to the result arrays.

  The buffers are written out only after the last step of a half, n = 32·p + 31, into block p of the two result
  arrays (sums [2, 256, 256] and counts [2, 1, 256]). At that step the rows summed are p·131072 … p·131072 + 131071,
  the whole half, so what is written to block p is the half's class sums `Spec.partSum … p` and class counts
  `Spec.partCnt … p`.
-/
import proofs.«113808_j15951508537566_2_alg».proof.Proof.Spec
import proofs.«113808_j15951508537566_2_alg».proof.Proof.LibKeepDims
import proofs.«113808_j15951508537566_2_alg».proof.Proof.Gen.KernelIdeal.Frame
import proofs.«113808_j15951508537566_2_alg».proof.Proof.AccInv
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen

variable (V : (c : Dev nD) → (b : Ref sig .tc) → Buf (Elt Ideal) ((c : Thread nD τ).loc b))

/-- The outputs' block at a point is the point's half. -/
theorem index0_2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem index0_3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- The two result arrays' claimed contents. -/
abbrev G2 (c : Dev nD) : S2x256x256.Idx → EReal :=
  fun i => Cert.Spec.partSum (V c main_arg0) (V c main_v0) (i 0) (i 1) (i 2)
abbrev G3 (c : Dev nD) : S2x1x256.Idx → EReal :=
  fun i => Cert.Spec.partCnt (V c main_v0) (i 0) (i 2)

/-- A sum of the rows' contributions over a half's range is that half's class sum, whatever names its indices carry. -/
theorem partSum_eq (X : Cert.Spec.Tab) (L : Cert.Spec.Lab) (p : Fin 2) (c d c' d' : Fin 256) (a b : ℕ)
    (ha : a = p.val * 131072) (hb : b = p.val * 131072 + 131072) (hc : c'.val = c.val) (hd : d'.val = d.val) :
    ∑ k ∈ Finset.Ico a b, Cert.Spec.term X L c d k = Cert.Spec.partSum X L p c' d' := by
  obtain rfl := Fin.ext hc
  obtain rfl := Fin.ext hd
  subst ha hb
  rfl
/-- The same for the counts. -/
theorem partCnt_eq (L : Cert.Spec.Lab) (p : Fin 2) (c c' : Fin 256) (a b : ℕ)
    (ha : a = p.val * 131072) (hb : b = p.val * 131072 + 131072) (hc : c'.val = c.val) :
    ∑ k ∈ Finset.Ico a b, Cert.Spec.unit L c k = Cert.Spec.partCnt L p c' := by
  obtain rfl := Fin.ext hc
  subst ha hb
  rfl

/-- What the last point of a half writes back for the sums is that half's block of the claimed array: the range
    summed by then is the whole half. -/
theorem flushed2 (c : Dev nD) (t : Fin cfg0.N) (hf : (cfg0.win 2).flush t = true) :
    (dat0 (F := Ideal) V c).flushed 2 t = ((cfg0.win 2).blk t).view.read (Elt Ideal) (G2 V c) := by
  have hN := lt64 t
  have h31 : t.val % 32 = 31 := (flush0_2 t).mp hf
  show (cfg0.win 2).cut (grid0.coords t) ((dat0 V c).after 2 t) = _
  rw [after0_2]
  funext y
  rw [View.read_apply]
  have y0 : (y 0).val < 1 := (y 0).isLt
  have hy : ∀ f : S1x256x256.Idx → EReal, (cfg0.win 2).cut (grid0.coords t) f y = f (ix3 (y 0) (y 1) (y 2)) := fun f =>
    congrArg f (funext fun a => match a with | ⟨0, _⟩ => rfl | ⟨1, _⟩ => rfl | ⟨2, _⟩ => rfl)
  refine (hy _).trans ?_
  refine ((inv V c t.val t.isLt).1 (y 0) (y 1) (y 2)).trans ?_
  show _ = Cert.Spec.partSum (V c main_arg0) (V c main_v0) ((((cfg0.win 2).blk t).view.emb y) 0)
    ((((cfg0.win 2).blk t).view.emb y) 1) ((((cfg0.win 2).blk t).view.emb y) 2)
  have e0 : ((((cfg0.win 2).blk t).view.emb y) 0).val = t.val / 32 := by
    show win0_2.index t 0 * 1 + 1 * (y 0).val = _
    rw [(index0_2 t).1]; omega
  have e1 : ((((cfg0.win 2).blk t).view.emb y) 1).val = (y 1).val := by
    show win0_2.index t 1 * 256 + 1 * (y 1).val = _
    rw [(index0_2 t).2.1]; omega
  have e2 : ((((cfg0.win 2).blk t).view.emb y) 2).val = (y 2).val := by
    show win0_2.index t 2 * 256 + 1 * (y 2).val = _
    rw [(index0_2 t).2.2]; omega
  exact partSum_eq _ _ _ _ _ _ _ _ _ (by rw [e0]) (by rw [e0]; omega) e1 e2

/-- and for the counts likewise. -/
theorem flushed3 (c : Dev nD) (t : Fin cfg0.N) (hf : (cfg0.win 3).flush t = true) :
    (dat0 (F := Ideal) V c).flushed 3 t = ((cfg0.win 3).blk t).view.read (Elt Ideal) (G3 V c) := by
  have hN := lt64 t
  have h31 : t.val % 32 = 31 := (flush0_3 t).mp hf
  show (cfg0.win 3).cut (grid0.coords t) ((dat0 V c).after 3 t) = _
  rw [after0_3]
  funext y
  rw [View.read_apply]
  have y0 : (y 0).val < 1 := (y 0).isLt
  have hy : ∀ f : S1x1x256.Idx → EReal, (cfg0.win 3).cut (grid0.coords t) f y = f (ix3 (y 0) (y 1) (y 2)) := fun f =>
    congrArg f (funext fun a => match a with | ⟨0, _⟩ => rfl | ⟨1, _⟩ => rfl | ⟨2, _⟩ => rfl)
  refine (hy _).trans ?_
  refine ((inv V c t.val t.isLt).2 (y 0) (y 1) (y 2)).trans ?_
  show _ = Cert.Spec.partCnt (V c main_v0) ((((cfg0.win 3).blk t).view.emb y) 0) ((((cfg0.win 3).blk t).view.emb y) 2)
  have e0 : ((((cfg0.win 3).blk t).view.emb y) 0).val = t.val / 32 := by
    show win0_3.index t 0 * 1 + 1 * (y 0).val = _
    rw [(index0_3 t).1]; omega
  have e2 : ((((cfg0.win 3).blk t).view.emb y) 2).val = (y 2).val := by
    show win0_3.index t 2 * 256 + 1 * (y 2).val = _
    rw [(index0_3 t).2.2]; omega
  exact partCnt_eq _ _ _ _ _ _ (by rw [e0]) (by rw [e0]; omega) e2

end Cert.KernelIdeal.Acc
end
-- ==== Proof.Acc.lean ====
/-
  The value of the two result arrays.

  Entry (p, c, d) of the sums' array lies in block p, which step 32·p + 31 writes; likewise entry (p, 0, c) of the
  counts' array. So the blocks p = 0, 1 cover each array, each is written with its half's sums and counts, and the
  arrays end holding `Spec.partSum` and `Spec.partCnt` of the table and the label column.
-/
import proofs.«113808_j15951508537566_2_alg».proof.Proof.Spec
import proofs.«113808_j15951508537566_2_alg».proof.Proof.LibKeepDims
import proofs.«113808_j15951508537566_2_alg».proof.Proof.Gen.KernelIdeal.Frame
import proofs.«113808_j15951508537566_2_alg».proof.Proof.AccFlush
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen

variable (V : (c : Dev nD) → (b : Ref sig .tc) → Buf (Elt Ideal) ((c : Thread nD τ).loc b))

/-- Every entry of the sums' array lies in the block its half's last point writes back. -/
theorem cover2 (i : S2x256x256.Idx) :
    ∃ t : Fin cfg0.N, (cfg0.win 2).flush t = true ∧ i ∈ ((cfg0.win 2).blk t).view.set := by
  have hN : cfg0.N = 64 := N_0
  have h0 : (i 0).val < 2 := (i 0).isLt
  have h1 : (i 1).val < 256 := (i 1).isLt
  have h2 : (i 2).val < 256 := (i 2).isLt
  have ht : (i 0).val * 32 + 31 < cfg0.N := by rw [hN]; omega
  refine ⟨⟨(i 0).val * 32 + 31, ht⟩, (flush0_2 _).mpr (by show ((i 0).val * 32 + 31) % 32 = 31; omega), ?_⟩
  have hi := index0_2 ⟨(i 0).val * 32 + 31, ht⟩
  show i ∈ ((View.whole main_v1_0).slice (win0_2.rect ⟨(i 0).val * 32 + 31, ht⟩)).set
  rw [View.set_slice_whole, Rect.mem_set_unit]
  intro a
  match a with
  | ⟨0, _⟩ =>
    show win0_2.index ⟨(i 0).val * 32 + 31, ht⟩ 0 * 1 ≤ (i 0 : Nat) ∧ (i 0 : Nat) < win0_2.index ⟨(i 0).val * 32 + 31, ht⟩ 0 * 1 + 1
    rw [hi.1]; show ((i 0).val * 32 + 31) / 32 * 1 ≤ (i 0).val ∧ (i 0).val < ((i 0).val * 32 + 31) / 32 * 1 + 1; omega
  | ⟨1, _⟩ =>
    show win0_2.index ⟨(i 0).val * 32 + 31, ht⟩ 1 * 256 ≤ (i 1 : Nat) ∧ (i 1 : Nat) < win0_2.index ⟨(i 0).val * 32 + 31, ht⟩ 1 * 256 + 256
    rw [hi.2.1]; omega
  | ⟨2, _⟩ =>
    show win0_2.index ⟨(i 0).val * 32 + 31, ht⟩ 2 * 256 ≤ (i 2 : Nat) ∧ (i 2 : Nat) < win0_2.index ⟨(i 0).val * 32 + 31, ht⟩ 2 * 256 + 256
    rw [hi.2.2]; omega

/-- and every entry of the counts' array likewise. -/
theorem cover3 (i : S2x1x256.Idx) :
    ∃ t : Fin cfg0.N, (cfg0.win 3).flush t = true ∧ i ∈ ((cfg0.win 3).blk t).view.set := by
  have hN : cfg0.N = 64 := N_0
  have h0 : (i 0).val < 2 := (i 0).isLt
  have h1 : (i 1).val < 1 := (i 1).isLt
  have h2 : (i 2).val < 256 := (i 2).isLt
  have ht : (i 0).val * 32 + 31 < cfg0.N := by rw [hN]; omega
  refine ⟨⟨(i 0).val * 32 + 31, ht⟩, (flush0_3 _).mpr (by show ((i 0).val * 32 + 31) % 32 = 31; omega), ?_⟩
  have hi := index0_3 ⟨(i 0).val * 32 + 31, ht⟩
  show i ∈ ((View.whole main_v1_1).slice (win0_3.rect ⟨(i 0).val * 32 + 31, ht⟩)).set
  rw [View.set_slice_whole, Rect.mem_set_unit]
  intro a
  match a with
  | ⟨0, _⟩ =>
    show win0_3.index ⟨(i 0).val * 32 + 31, ht⟩ 0 * 1 ≤ (i 0 : Nat) ∧ (i 0 : Nat) < win0_3.index ⟨(i 0).val * 32 + 31, ht⟩ 0 * 1 + 1
    rw [hi.1]; show ((i 0).val * 32 + 31) / 32 * 1 ≤ (i 0).val ∧ (i 0).val < ((i 0).val * 32 + 31) / 32 * 1 + 1; omega
  | ⟨1, _⟩ =>
    show win0_3.index ⟨(i 0).val * 32 + 31, ht⟩ 1 * 1 ≤ (i 1 : Nat) ∧ (i 1 : Nat) < win0_3.index ⟨(i 0).val * 32 + 31, ht⟩ 1 * 1 + 1
    rw [hi.2.1]; omega
  | ⟨2, _⟩ =>
    show win0_3.index ⟨(i 0).val * 32 + 31, ht⟩ 2 * 256 ≤ (i 2 : Nat) ∧ (i 2 : Nat) < win0_3.index ⟨(i 0).val * 32 + 31, ht⟩ 2 * 256 + 256
    rw [hi.2.2]; omega

/-- THE VALUE OF THE FIRST CALL: its two result arrays end holding each half's class sums and class counts. -/
theorem arr2 (c : Dev nD) : (dat0 (F := Ideal) V c).arrAt 2 cfg0.N
    = fun i : S2x256x256.Idx => Cert.Spec.partSum (V c main_arg0) (V c main_v0) (i 0) (i 1) (i 2) :=
  (dat0 (F := Ideal) V c).arrAt_eq_of_cover 2 (G2 V c) (flushed2 V c) cover2
theorem arr3 (c : Dev nD) : (dat0 (F := Ideal) V c).arrAt 3 cfg0.N
    = fun i : S2x1x256.Idx => Cert.Spec.partCnt (V c main_v0) (i 0) (i 2) :=
  (dat0 (F := Ideal) V c).arrAt_eq_of_cover 3 (G3 V c) (flushed3 V c) cover3

end Cert.KernelIdeal.Acc
end
-- ==== Proof.FinRow.lean ====
/-
  One row of the final pass, as a function of the row alone.

  The result at row `n` and class `j` depends on the table only through row `n`: the row's largest entry, the
  exponentials of the entries minus it, their sum, the row's squared length, and the row's inner product with each row of
  the matrix of class means. Here that dependence is written out: every quantity of the specification is restated as a
  function of a row `xr : Fin 256 → EReal`, and the specification's `out` at row `n` is that function of row `n` of the
  table. A block of 4096 consecutive rows is then handled one row at a time.

  Also the three words of the body that are evaluated: the word of 1.0 is `1`, the word of −∞ is `⊥`, the zero word `0`.
-/
import proofs.«113808_j15951508537566_2_alg».proof.Proof.Spec

noncomputable section

open scoped BigOperators

namespace Cert.KernelIdeal.Fin

open Idealize.ShloMosaic Idealize.ShloMosaic.ValueIdx Cert.Spec

/-- The largest entry of a row (from −∞). -/
def rmax (xr : Fin 256 → EReal) : EReal := (Finset.univ : Finset (Fin 256)).fold max ⊥ xr
/-- The exponential of an entry minus the row's largest, and the row's softmax. -/
def rexp (xr : Fin 256 → EReal) (k : Fin 256) : EReal := Ideal.exp (xr k - rmax xr)
def rsoft (xr : Fin 256 → EReal) (k : Fin 256) : EReal := Ideal.div (rexp xr k) (∑ k' : Fin 256, rexp xr k')
/-- The row's squared length, and its inner product with row `j` of a matrix. -/
def rsqn (xr : Fin 256 → EReal) : EReal := ∑ k : Fin 256, xr k * xr k
def rcross (xr : Fin 256 → EReal) (cm : Mat) (j : Fin 256) : EReal := ∑ k : Fin 256, xr k * cm (ix2 j k)
/-- The squared distance expanded, the unnormalised weight, and the normalised weight. -/
def rdist2 (xr : Fin 256 → EReal) (cm : Mat) (q : Row) (j : Fin 256) : EReal :=
  (rsqn xr + q (ix2 0 j)) - two * rcross xr cm j
def rwgt (xr : Fin 256 → EReal) (cm : Mat) (q : Row) (j : Fin 256) : EReal :=
  rsoft xr j * Ideal.exp (negTenth * Ideal.sqrt (max (rdist2 xr cm q j) 0))
def rout (xr : Fin 256 → EReal) (cm : Mat) (q : Row) (j : Fin 256) : EReal :=
  Ideal.div (rwgt xr cm q j) (∑ j' : Fin 256, rwgt xr cm q j')

/-- The specification's result at row `n` is the row function of row `n` of the table. -/
theorem out_eq_rout (x : Tab) (cm : Mat) (q : Row) (n : Fin 262144) (j : Fin 256) :
    out x cm q n j = rout (fun k => x (ix2 n k)) cm q j := rfl

/-- The word of 1.0 is the extended real `1`. -/
theorem ofBits_one_f32 : Ideal.ofBits .f32 0x3F800000#32 = 1 := by
  simp [Ideal.ofBits, Ideal.ieee, -EReal.coe_mul]; norm_num
/-- The word of −∞ is the bottom of the extended reals. -/
theorem ofBits_neginf_f32 : Ideal.ofBits .f32 0xFF800000#32 = ⊥ := by
  simp [Ideal.ofBits, Ideal.ieee]

end Cert.KernelIdeal.Fin

end
-- ==== Proof.FinPayload.lean ====
/-
  The body's arithmetic read at one element of the block.

  The body works on a block of 4096 rows at once: lane reductions give one number per row (the row's largest entry, the
  sum of its exponentials, its squared length, the sum of its weights), each viewed as a column and spread back over the
  256 lanes; one matrix product against the transposed class means gives all inner products of the block. Read at row `r`
  and lane `j`, each of these is a quantity of row `r` alone, and the whole result is the row function `rout` of row `r`.
-/
import proofs.«113808_j15951508537566_2_alg».proof.Proof.FinRow
import proofs.«113808_j15951508537566_2_alg».proof.Proof.LibKeepDims
import proofs.«113808_j15951508537566_2_alg».proof.Proof.Gen.KernelIdeal.Skeleton
import Idealize.ShloMosaic.Lib.Pipeline.Value

noncomputable section

open scoped BigOperators

namespace Cert.KernelIdeal.Fin

open Cert.KernelIdeal Cert.KernelIdeal.Gen
open Idealize.ShloMosaic Idealize.ShloMosaic.ValueIdx Idealize.ShloMosaic.KeepDims Cert.Spec

/-- A row's largest entry, taken over the lanes from −∞, viewed as a column and spread over the lanes: at `(r, j)` it is
    the largest entry of row `r`. -/
theorem rowMax_spread_apply (v : FVec Ideal S4096x256 .f32) (hred : S4096x256.Reduces [1] S4096) (hφ : FKind.Formats .f32)
    (hacc : (0xFF800000#32 : BitVec 32) = FKind.maximumf.neutral .f32 hφ) (hsc : S4096.ShapeCasts S4096x1)
    (hbc : S4096x1.Broadcasts S4096x256) (r : Fin 4096) (j : Fin 256) :
    broadcastTo S4096x256 (shapeCast S4096x1 (multiReduction .maximumf [1] S4096 v 0xFF800000#32 hred hφ hacc) hsc) hbc (ix2 r j)
      = rmax (fun k => v (ix2 r k)) := by
  refine (broadcastTo_a1_ab_apply _ hbc r j).trans ?_
  refine (shapeCast_a_a1_apply _ hsc r 0).trans ?_
  refine (Ideal.multiReduction_maximumf_single v _ hred hφ hacc (ix1 r)).trans ?_
  show (Finset.univ : Finset (Fin 256)).fold max (Ideal.ofBits .f32 0xFF800000#32) (fun k => v (hred.lift (ix1 r) k))
    = (Finset.univ : Finset (Fin 256)).fold max ⊥ (fun k => v (ix2 r k))
  rw [ofBits_neginf_f32]
  refine congrArg (fun f => (Finset.univ : Finset (Fin 256)).fold max ⊥ f) (funext fun k => congrArg v ?_)
  funext ax
  match ax with
  | ⟨0, _⟩ => exact Fin.ext rfl
  | ⟨1, _⟩ => exact Fin.ext rfl

/-- A row's sum over the lanes, viewed as a column and spread over the lanes: at `(r, j)` it is the sum of row `r`. -/
theorem rowSum_spread_apply (v : FVec Ideal S4096x256 .f32) (hred : S4096x256.Reduces [1] S4096) (hφ : FKind.Formats .f32)
    (hacc : (0x00000000#32 : BitVec 32) = FKind.add.neutral .f32 hφ) (hsc : S4096.ShapeCasts S4096x1)
    (hbc : S4096x1.Broadcasts S4096x256) (r : Fin 4096) (j : Fin 256) :
    broadcastTo S4096x256 (shapeCast S4096x1 (multiReduction .add [1] S4096 v 0x00000000#32 hred hφ hacc) hsc) hbc (ix2 r j)
      = ∑ k : Fin 256, v (ix2 r k) := by
  refine (broadcastTo_a1_ab_apply _ hbc r j).trans ?_
  refine (shapeCast_a_a1_apply _ hsc r 0).trans ?_
  exact laneSum_apply v _ hred hφ hacc r

/-- The one row of squared lengths of the class means, spread over the 4096 rows: at `(r, j)` it is its entry `j`. -/
theorem sqRow_spread_apply (x2 : FVec Ideal S1x256 .f32) (hsc : S1x256.ShapeCasts S1x256) (hbc : S1x256.Broadcasts S4096x256)
    (r : Fin 4096) (j : Fin 256) :
    broadcastTo S4096x256 (shapeCast S1x256 x2 hsc) hbc (ix2 r j) = x2 (ix2 0 j) := by
  refine (broadcastTo_1b_ab_apply _ hbc r j).trans ?_
  rw [shapeCast_self]

/-- The operand indices of the product at output index `i` and contraction index `q`: the left operand is read at
    `(i 0, q)`, the right operand at `(q, i 1)`. -/
theorem dot_lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem dot_lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem dot_rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem dot_rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The block times the transposed class means, into a zero accumulator: at `(r, j)` the inner product of row `r` of the
    block with row `j` of the class means (the change of format of both operands is the identity). -/
theorem cross_apply (x0 : FVec Ideal S4096x256 .f32) (x1 : FVec Ideal S256x256 .f32) (hsc : S256x256.ShapeCasts S256x256)
    (hlt : FTy.bits .bf16 < FTy.bits .f32) (htr : S256x256.Transposes [1, 0] S256x256) (r : Fin 4096) (j : Fin 256) :
    matmul dot_S4096x256_S256x256_S4096x256_1_0_0_1_n_n none (truncf .bf16 x0 hlt)
        (transpose S256x256 [1, 0] (truncf .bf16 (shapeCast S256x256 x1 hsc) hlt) htr)
        (constant (F := Ideal) S4096x256 .f32 0x00000000#32) (ix2 r j)
      = rcross (fun k => x0 (ix2 r k)) x1 j := by
  rw [shapeCast_self]
  refine (Ideal.matmul_constant_zero_apply dot_S4096x256_S256x256_S4096x256_1_0_0_1_n_n none _ _ (ix2 r j)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r j)
      ((contrEquiv1 dot_S4096x256_S256x256_S4096x256_1_0_0_1_n_n 256 rfl rfl).symm k) = ix2 r k := funext fun a => Fin.ext (by
    match a with
    | ⟨0, _⟩ => exact dot_lhs_0 _ _
    | ⟨1, _⟩ => exact (dot_lhs_1 _ _).trans hk)
  have er : dot_S4096x256_S256x256_S4096x256_1_0_0_1_n_n.rhsIdx (ix2 r j)
      ((contrEquiv1 dot_S4096x256_S256x256_S4096x256_1_0_0_1_n_n 256 rfl rfl).symm k) = ix2 k j := funext fun a => Fin.ext (by
    match a with
    | ⟨0, _⟩ => exact (dot_rhs_0 _ _).trans hk
    | ⟨1, _⟩ => exact dot_rhs_1 _ _)
  rw [el, er]
  show x0 (ix2 r k) * transpose S256x256 [1, 0] (truncf .bf16 x1 hlt) htr (ix2 k j) = x0 (ix2 r k) * x1 (ix2 j k)
  rw [transpose_ix2_apply]
  rfl

/-! ## The body's stages as functions of blocks -/

/-- A block's row maxima, and a block's row sums, each spread back over the lanes. -/
def spreadMax (x : FVec Ideal S4096x256 .f32) : FVec Ideal S4096x256 .f32 :=
  broadcastTo S4096x256 (shapeCast S4096x1 (multiReduction .maximumf [1] S4096 x 0xFF800000#32 reduces_S4096x256_S4096 (.inl rfl) rfl)
    shapeCasts_S4096_S4096x1) broadcasts_S4096x1_S4096x256
def spreadSum (x : FVec Ideal S4096x256 .f32) : FVec Ideal S4096x256 .f32 :=
  broadcastTo S4096x256 (shapeCast S4096x1 (multiReduction .add [1] S4096 x 0x00000000#32 reduces_S4096x256_S4096 (.inl rfl) rfl)
    shapeCasts_S4096_S4096x1) broadcasts_S4096x1_S4096x256
/-- The softmax of every row of a block. -/
def softB (x : FVec Ideal S4096x256 .f32) : FVec Ideal S4096x256 .f32 :=
  divf (exp (subf x (spreadMax x))) (spreadSum (exp (subf x (spreadMax x))))
/-- The inner products of the block's rows with the class means. -/
def crossB (x0 : FVec Ideal S4096x256 .f32) (x1 : FVec Ideal S256x256 .f32) : FVec Ideal S4096x256 .f32 :=
  matmul dot_S4096x256_S256x256_S4096x256_1_0_0_1_n_n none (truncf .bf16 x0 bitsLt_bf16_f32)
    (transpose S256x256 [1, 0] (truncf .bf16 (shapeCast S256x256 x1 shapeCasts_S256x256_S256x256) bitsLt_bf16_f32)
      transposes_S256x256_p1_0_S256x256)
    (constant S4096x256 .f32 0x00000000#32)
/-- The expanded squared distances of the block's rows to the class means. -/
def dist2B (x0 : FVec Ideal S4096x256 .f32) (x1 : FVec Ideal S256x256 .f32) (x2 : FVec Ideal S1x256 .f32) :
    FVec Ideal S4096x256 .f32 :=
  subf (addf (spreadSum (mulf x0 x0)) (broadcastTo S4096x256 (shapeCast S1x256 x2 shapeCasts_S1x256_S1x256) broadcasts_S1x256_S4096x256))
    (mulf (broadcast S4096x256 (FloatOps.ofBits (F := Ideal) .f32 0x40000000#32)) (crossB x0 x1))
/-- The unnormalised weights (the softmax taken of `xs`, the distances of `x0`), and the normalised ones. -/
def wgtB (xs x0 : FVec Ideal S4096x256 .f32) (x1 : FVec Ideal S256x256 .f32) (x2 : FVec Ideal S1x256 .f32) :
    FVec Ideal S4096x256 .f32 :=
  mulf (softB xs) (exp (mulf (broadcast S4096x256 (FloatOps.ofBits (F := Ideal) .f32 0xBDCCCCCD#32))
    (sqrt (maximumf (dist2B x0 x1 x2) (broadcast S4096x256 (FloatOps.ofBits (F := Ideal) .f32 0x00000000#32))))))
def outB (xs x0 : FVec Ideal S4096x256 .f32) (x1 : FVec Ideal S256x256 .f32) (x2 : FVec Ideal S1x256 .f32) :
    FVec Ideal S4096x256 .f32 :=
  divf (wgtB xs x0 x1 x2) (spreadSum (wgtB xs x0 x1 x2))

/-- The body's arithmetic is these stages composed, the softmax taken of the block times the word of 1.0. -/
theorem pay_eq_outB (x0 : Vec Ideal S4096x256 .f32) (x1 : Vec Ideal S256x256 .f32) (x2 : Vec Ideal S1x256 .f32) :
    k1_pay1 (F := Ideal) x0 x1 x2
      = outB (mulf x0 (broadcast S4096x256 (FloatOps.ofBits (F := Ideal) .f32 0x3F800000#32))) x0 x1 x2 := rfl

/-! ## Each stage at row `r`, lane `j` -/

theorem spreadMax_apply (x : FVec Ideal S4096x256 .f32) (r : Fin 4096) (j : Fin 256) :
    spreadMax x (ix2 r j) = rmax (fun k => x (ix2 r k)) :=
  rowMax_spread_apply x _ _ _ _ _ r j
theorem spreadSum_apply (x : FVec Ideal S4096x256 .f32) (r : Fin 4096) (j : Fin 256) :
    spreadSum x (ix2 r j) = ∑ k : Fin 256, x (ix2 r k) :=
  rowSum_spread_apply x _ _ _ _ _ r j

theorem softB_apply (x : FVec Ideal S4096x256 .f32) (r : Fin 4096) (j : Fin 256) :
    softB x (ix2 r j) = rsoft (fun k => x (ix2 r k)) j := by
  have he : ∀ k : Fin 256, exp (subf x (spreadMax x)) (ix2 r k) = rexp (fun k => x (ix2 r k)) k := fun k => by
    show Ideal.exp (x (ix2 r k) - spreadMax x (ix2 r k)) = Ideal.exp (x (ix2 r k) - rmax (fun k => x (ix2 r k)))
    rw [spreadMax_apply]
  show Ideal.div (exp (subf x (spreadMax x)) (ix2 r j)) (spreadSum (exp (subf x (spreadMax x))) (ix2 r j))
    = Ideal.div (rexp (fun k => x (ix2 r k)) j) (∑ k' : Fin 256, rexp (fun k => x (ix2 r k)) k')
  rw [spreadSum_apply, he j]
  exact congrArg _ (Finset.sum_congr rfl fun k _ => he k)

theorem crossB_apply (x0 : FVec Ideal S4096x256 .f32) (x1 : FVec Ideal S256x256 .f32) (r : Fin 4096) (j : Fin 256) :
    crossB x0 x1 (ix2 r j) = rcross (fun k => x0 (ix2 r k)) x1 j :=
  cross_apply x0 x1 _ _ _ r j

theorem dist2B_apply (x0 : FVec Ideal S4096x256 .f32) (x1 : FVec Ideal S256x256 .f32) (x2 : FVec Ideal S1x256 .f32)
    (r : Fin 4096) (j : Fin 256) : dist2B x0 x1 x2 (ix2 r j) = rdist2 (fun k => x0 (ix2 r k)) x1 x2 j := by
  show (spreadSum (mulf x0 x0) (ix2 r j)
        + broadcastTo S4096x256 (shapeCast S1x256 x2 shapeCasts_S1x256_S1x256) broadcasts_S1x256_S4096x256 (ix2 r j))
      - Ideal.ofBits .f32 0x40000000#32 * crossB x0 x1 (ix2 r j)
    = ((∑ k : Fin 256, x0 (ix2 r k) * x0 (ix2 r k)) + x2 (ix2 0 j)) - two * rcross (fun k => x0 (ix2 r k)) x1 j
  rw [spreadSum_apply, sqRow_spread_apply, crossB_apply]
  rfl

theorem wgtB_apply (xs x0 : FVec Ideal S4096x256 .f32) (x1 : FVec Ideal S256x256 .f32) (x2 : FVec Ideal S1x256 .f32)
    (hxs : xs = x0) (r : Fin 4096) (j : Fin 256) : wgtB xs x0 x1 x2 (ix2 r j) = rwgt (fun k => x0 (ix2 r k)) x1 x2 j := by
  subst hxs
  show softB xs (ix2 r j) * Ideal.exp (Ideal.ofBits .f32 0xBDCCCCCD#32
        * Ideal.sqrt (max (dist2B xs x1 x2 (ix2 r j)) (Ideal.ofBits .f32 0x00000000#32)))
    = rsoft (fun k => xs (ix2 r k)) j * Ideal.exp (negTenth * Ideal.sqrt (max (rdist2 (fun k => xs (ix2 r k)) x1 x2 j) 0))
  rw [softB_apply, dist2B_apply, Ideal.ofBits_zero_f32]
  rfl

theorem outB_apply (xs x0 : FVec Ideal S4096x256 .f32) (x1 : FVec Ideal S256x256 .f32) (x2 : FVec Ideal S1x256 .f32)
    (hxs : xs = x0) (r : Fin 4096) (j : Fin 256) : outB xs x0 x1 x2 (ix2 r j) = rout (fun k => x0 (ix2 r k)) x1 x2 j := by
  show Ideal.div (wgtB xs x0 x1 x2 (ix2 r j)) (spreadSum (wgtB xs x0 x1 x2) (ix2 r j))
    = Ideal.div (rwgt (fun k => x0 (ix2 r k)) x1 x2 j) (∑ j' : Fin 256, rwgt (fun k => x0 (ix2 r k)) x1 x2 j')
  rw [spreadSum_apply, wgtB_apply xs x0 x1 x2 hxs r j]
  exact congrArg _ (Finset.sum_congr rfl fun k _ => wgtB_apply xs x0 x1 x2 hxs r k)

/-- A block times the word of 1.0 is the block. -/
theorem mul_one_word (x0 : FVec Ideal S4096x256 .f32) :
    mulf x0 (broadcast S4096x256 (FloatOps.ofBits (F := Ideal) .f32 0x3F800000#32)) = x0 := by
  funext i
  show x0 i * Ideal.ofBits .f32 0x3F800000#32 = x0 i
  rw [ofBits_one_f32, mul_one]

/-- THE BODY'S RESULT AT ROW `r`, LANE `j` of the block is the row function of row `r` of the loaded block, the class means
    and the row of their squared lengths. -/
theorem pay_apply (x0 : Vec Ideal S4096x256 .f32) (x1 : Vec Ideal S256x256 .f32) (x2 : Vec Ideal S1x256 .f32)
    (r : Fin 4096) (j : Fin 256) :
    k1_pay1 (F := Ideal) x0 x1 x2 (ix2 r j) = rout (fun k => x0 (ix2 r k)) x1 x2 j := by
  rw [pay_eq_outB]
  exact outB_apply _ x0 x1 x2 (mul_one_word x0) r j

end Cert.KernelIdeal.Fin

end
-- ==== Proof.Fin.lean ====
/-
  The output array of the final pass.

  The pass runs over 64 points; point `t` loads rows `4096·t … 4096·t + 4095` of the table, the whole matrix of class means
  and the whole row of their squared lengths, and writes rows `4096·t … 4096·t + 4095` of the result. The body's value at
  row `r`, lane `j` of the block is the row function of row `r` of the loaded block, so what point `t` writes back is block
  `t` of ONE function of the three arrays: the specification's `out`. Every row `n` lies in the block of point `n / 4096`,
  so the 64 blocks cover the array, and the array after the pass is that function.
-/
import proofs.«113808_j15951508537566_2_alg».proof.Proof.FinPayload
import proofs.«113808_j15951508537566_2_alg».proof.Proof.Gen.KernelIdeal.Frame
import Idealize.ShloMosaic.Lib.Pipeline.Value

noncomputable section

open scoped BigOperators

open Idealize.ShloMosaic Idealize.ShloMosaic.TcCoe Idealize.SL.Sem Idealize.ShloMosaic.ValueIdx

namespace Cert.KernelIdeal.Fin

open Cert.KernelIdeal Cert.KernelIdeal.Gen

/-- The function the output array ends holding: the specification's result of the table, the class means and the row
    of their squared lengths, index by index. -/
abbrev outFn (X : Cert.Spec.Tab) (CM : Cert.Spec.Mat) (Q : Cert.Spec.Row) : S262144x256.Idx → EReal :=
  fun i => Cert.Spec.out X CM Q (i 0) (i 1)

/-- The body's value at an element `y` of the block, when row `y 0` of the loaded block is row `i 0` of the table, the other
    two loaded blocks are the whole arrays, and `y` and `i` have the same lane: the specification's result at `i`. -/
theorem pay_at (x0 : Vec Ideal S4096x256 .f32) (x1 : Vec Ideal S256x256 .f32) (x2 : Vec Ideal S1x256 .f32)
    (X : Cert.Spec.Tab) (CM : Cert.Spec.Mat) (Q : Cert.Spec.Row) (y : S4096x256.Idx) (i : S262144x256.Idx)
    (h0 : ∀ k : Fin 256, x0 (ix2 (y 0) k) = X (ix2 (i 0) k)) (h1 : x1 = CM) (h2 : x2 = Q) (hj : (i 1).val = (y 1).val) :
    k1_pay1 (F := Ideal) x0 x1 x2 y = outFn X CM Q i := by
  subst h1 h2
  obtain ⟨r, j, rfl⟩ : ∃ (r : Fin 4096) (j : Fin 256), y = ix2 r j := ⟨y 0, y 1, eq_ix2 y⟩
  rw [pay_apply]
  refine Eq.trans ?_ (out_eq_rout X x1 x2 (i 0) (i 1)).symm
  exact congrArg₂ (fun (f : Fin 256 → EReal) (jj : Fin 256) => rout f x1 x2 jj) (funext h0) (Fin.ext hj.symm)

theorem hz : (![0, 0] : Fin 2 → Nat) = fun _ => 0 := funext fun a => by fin_cases a <;> rfl

/-- The printed index maps, decided over the 64 points: the table's and the result's block at point `t` is block `t` along
    the rows; the class means and their squared lengths are one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the specification's result of the three arrays as the pass finds them. -/
theorem flushed_eq (c : Dev nD) (t : Fin cfg1.N) :
    (dat1 (F := Ideal) V c).flushed 3 t
      = ((cfg1.win 3).blk t).view.read (Elt Ideal) (outFn (V c main_arg0) (V c main_v8) (V c main_v11)) := by
  show (cfg1.win 3).cut (grid1.coords t) ((dat1 V c).after 3 t) = _
  rw [after1_3]
  unfold out1_3
  rw [View.canon_unit_zero hz]
  simp only [View.ld_unit_zero (S := S4096x256) hz, View.ld_unit_zero (S := S256x256) hz, View.ld_unit_zero (S := S1x256) hz]
  obtain ⟨e00, e01, e10, e11, e20, e21, e30, e31⟩ := idx_facts t
  funext y
  refine pay_at (iblk1 V c 0 t) (iblk1 V c 1 t) (iblk1 V c 2 t) (V c main_arg0) (V c main_v8) (V c main_v11) y
    (((cfg1.win 3).blk t).view.emb y) (fun k => ?_) (funext fun z => ?_) (funext fun z => ?_) ?_
  · show V c main_arg0 (((cfg1.win 0).blk t).view.emb (ix2 (y 0) k)) = V c main_arg0 (ix2 ((((cfg1.win 3).blk t).view.emb y) 0) k)
    refine congrArg (V c main_arg0) (funext fun a => Fin.ext ?_)
    match a with
    | ⟨0, _⟩ =>
      show win1_0.index t (0 : Fin 2) * 4096 + 1 * (y 0).val = win1_3.index t (0 : Fin 2) * 4096 + 1 * (y 0).val
      rw [e00, e30]
    | ⟨1, _⟩ =>
      show win1_0.index t (1 : Fin 2) * 256 + 1 * k.val = k.val
      rw [e01]; omega
  · show V c main_v8 (((cfg1.win 1).blk t).view.emb z) = V c main_v8 z
    refine congrArg (V c main_v8) (funext fun a => Fin.ext ?_)
    match a with
    | ⟨0, _⟩ => show win1_1.index t (0 : Fin 2) * 256 + 1 * (z 0).val = (z 0).val; rw [e10]; omega
    | ⟨1, _⟩ => show win1_1.index t (1 : Fin 2) * 256 + 1 * (z 1).val = (z 1).val; rw [e11]; omega
  · show V c main_v11 (((cfg1.win 2).blk t).view.emb z) = V c main_v11 z
    refine congrArg (V c main_v11) (funext fun a => Fin.ext ?_)
    match a with
    | ⟨0, _⟩ => show win1_2.index t (0 : Fin 2) * 1 + 1 * (z 0).val = (z 0).val; rw [e20]; omega
    | ⟨1, _⟩ => show win1_2.index t (1 : Fin 2) * 256 + 1 * (z 1).val = (z 1).val; rw [e21]; omega
  · show win1_3.index t (1 : Fin 2) * 256 + 1 * (y 1).val = (y 1).val
    rw [e31]; omega

/-- An index of the result is in point `t`'s block iff each coordinate is in the block's range on its axis. -/
theorem mem_blk (t : Fin cfg1.N) (i : S262144x256.Idx) :
    i ∈ ((cfg1.win 3).blk t).view.set
      ↔ ∀ a : Fin 2, win1_3.index t a * S4096x256.size a ≤ (i a).val ∧ (i a).val < win1_3.index t a * S4096x256.size a + S4096x256.size a := by
  show i ∈ ((View.whole main_v12).slice (win1_3.rect t)).set ↔ _
  rw [View.set_slice_whole, Rect.mem_set_unit]
  exact Iff.rfl

/-- Every index of the result lies in the block of the point its row divided by 4096 names, and every point writes back. -/
theorem cover (i : S262144x256.Idx) :
    ∃ t : Fin cfg1.N, (cfg1.win 3).flush t = true ∧ i ∈ ((cfg1.win 3).blk t).view.set := by
  have hN : cfg1.N = 64 := N_1
  have hi0 : (i 0).val < 262144 := (i 0).isLt
  have hi1 : (i 1).val < 256 := (i 1).isLt
  obtain ⟨t, ht⟩ : ∃ t : Fin cfg1.N, t.val = (i 0).val / 4096 := ⟨⟨(i 0).val / 4096, by rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 4096 ≤ (i 0).val ∧ (i 0).val < win1_3.index t (0 : Fin 2) * 4096 + 4096
    rw [e30, ht]; omega
  | ⟨1, _⟩ =>
    show win1_3.index t (1 : Fin 2) * 256 ≤ (i 1).val ∧ (i 1).val < win1_3.index t (1 : Fin 2) * 256 + 256
    rw [e31]; omega

/-- THE RESULT ARRAY after the pass: the specification's result of the table, the class means and the row of their squared
    lengths as the pass finds them. -/
theorem arr (c : Dev nD) : (dat1 (F := Ideal) V c).arrAt 3 cfg1.N
    = fun i : S262144x256.Idx => Cert.Spec.out (V c main_arg0) (V c main_v8) (V c main_v11) (i 0) (i 1) :=
  (dat1 (F := Ideal) V c).arrAt_eq_of_cover 3 (outFn (V c main_arg0) (V c main_v8) (V c main_v11))
    (fun t _ => flushed_eq V c t) cover

end Cert.KernelIdeal.Fin

end
-- ==== Proof.LibSegmentSum.lean ====
/-
  Permuting the updates of an accumulating scatter, and the reads around it.

  A segment sum `out[idx[e], :] += upd[e, :]` is a `stablehlo.scatter` with an `add` body over `E` scatter
  indices. Its value at the ideal instance is, at each operand element, the operand plus the SUM of the updates landing
  there: a sum over a finite set, so presenting the pairs (index, update row) in another order — through any bijection
  `σ` of the `E` positions — changes nothing. Here: that statement for the row scatter `[N, C] ← [E, 1], [E, C]` and
  for the flat scatter `[N] ← [E, 1], [E]`; the gathers `x[idx]` of rows and of a flat table read at an index
  (start index read signed and clamped); and that an argsort (a two-operand sort carrying an iota) returns the words of
  a bijection of the positions.
-/
import Idealize.ShloMosaic.PureOps.Ideal
import Idealize.ShloMosaic.PureOps.Ideal.Laws
import Idealize.ShloMosaic.Lib.ValueIdx
import Idealize.ShloMosaic.Lib.SortFacts

noncomputable section

open scoped BigOperators

namespace Idealize.ShloMosaic.SegmentSum

open Idealize.ShloMosaic Idealize.ShloMosaic.ValueIdx

/-! ## The result index of an update depends only on its start and window coordinates -/

/-- Two update indices (under two index tables) with the same window start and the same window coordinate on every
    operand axis land at the same operand element, or are both dropped. -/
theorem resultIdx?_congr {s si u : Shape} (d : ScatterDims s si u) {w : Nat} (j j' : u.Idx) (idx idx' : IVec si w)
    (hs : ∀ a, d.start j idx a = d.start j' idx' a) (hw : ∀ a, d.window j a = d.window j' a) :
    d.resultIdx? j idx = d.resultIdx? j' idx' := by
  unfold ScatterDims.resultIdx?
  simp only [hs, hw]

/-! ## The row scatter `[N, C] ← [E, 1], [E, C]` -/

/-- The dimension numbers of `x.at[idx].add(upd)` for a table `x : [N, C]`, indices `idx : [E, 1]` and update rows
    `upd : [E, C]`: update axis 1 is the window (a whole row), operand axis 0 is inserted and is the one the scatter
    index names; the index vector is axis 1 of the indices. Their conditions `wf` are decided on literal shapes. -/
abbrev rowsScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- Update `(e, ch)` starts, on the row axis, at the signed word `idx[e, 0]`. -/
theorem rows_start_zero (idx : IVec ⟨2, ![E, 1]⟩ w) (e : Fin E) (ch : Fin C) :
    (rowsScatterDims N E C wf).start (ix2 e ch) idx 0 = (idx (ix2 e 0)).toInt := by
  unfold ScatterDims.start
  rw [dif_pos (show (0 : Fin 2) ∈ (rowsScatterDims N E C wf).scatterDimsToOperandDims from List.mem_singleton.mpr rfl)]
  have hsi : (rowsScatterDims N E C wf).siIdx (ix2 e ch)
      ⟨List.idxOf (0 : Fin 2) (rowsScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at `0` on the channel axis, which the scatter index does not name. -/
theorem rows_start_one (idx : IVec ⟨2, ![E, 1]⟩ w) (j : (⟨2, ![E, C]⟩ : Shape).Idx) :
    (rowsScatterDims N E C wf).start j idx 1 = 0 := by
  unfold ScatterDims.start
  rw [dif_neg (show (1 : Fin 2) ∉ ([0] : List (Fin 2)) from by decide)]

/-- Its window coordinate is `0` on the (inserted) row axis … -/
theorem rows_window_zero (j : (⟨2, ![E, C]⟩ : Shape).Idx) : (rowsScatterDims N E C wf).window j 0 = 0 := by
  unfold ScatterDims.window
  have h : (0 : Fin 2) ∉ (rowsScatterDims N E C wf).sKept :=
    show (0 : Fin 2) ∉ (List.finRange 2).filter (fun a => a ∉ ([0] : List (Fin 2))) from by decide
  rw [dif_neg h]

/-- … and its channel on the channel axis. -/
theorem rows_window_one (j : (⟨2, ![E, C]⟩ : Shape).Idx) : (rowsScatterDims N E C wf).window j 1 = (j 1).val := by
  unfold ScatterDims.window
  have h : (1 : Fin 2) ∈ (rowsScatterDims N E C wf).sKept :=
    show (1 : Fin 2) ∈ (List.finRange 2).filter (fun a => a ∉ ([0] : List (Fin 2))) from by decide
  rw [dif_pos h]
  rfl

/-- Where update `(e, ch)` lands depends on the index table only through the word `idx[e, 0]`: two tables that hold
    the same word at `e` and at `e'` send `(e, ch)` and `(e', ch)` to the same element. -/
theorem rows_resultIdx?_congr (idx idx' : IVec ⟨2, ![E, 1]⟩ w) (e e' : Fin E) (ch : Fin C)
    (h : idx' (ix2 e' 0) = idx (ix2 e 0)) :
    (rowsScatterDims N E C wf).resultIdx? (ix2 e' ch) idx' = (rowsScatterDims N E C wf).resultIdx? (ix2 e ch) idx := by
  refine resultIdx?_congr _ _ _ _ _ (fun a => ?_) (fun a => ?_)
  · match a with
    | ⟨0, _⟩ => exact (rows_start_zero wf idx' e' ch).trans ((congrArg BitVec.toInt h).trans (rows_start_zero wf idx e ch).symm)
    | ⟨1, _⟩ => exact (rows_start_one wf idx' _).trans (rows_start_one wf idx _).symm
  · match a with
    | ⟨0, _⟩ => exact (rows_window_zero wf _).trans (rows_window_zero wf _).symm
    | ⟨1, _⟩ => exact (rows_window_one wf _).trans (rows_window_one wf _).symm

/-- A bijection of the `E` positions, applied to the first coordinate of an update index. -/
def rowsEquiv (σ : Fin E ≃ Fin E) : (⟨2, ![E, C]⟩ : Shape).Idx ≃ (⟨2, ![E, C]⟩ : Shape).Idx where
  toFun j := ix2 (σ (j 0)) (j 1)
  invFun j := ix2 (σ.symm (j 0)) (j 1)
  left_inv j := by
    funext a
    match a with
    | ⟨0, _⟩ => exact σ.symm_apply_apply _
    | ⟨1, _⟩ => rfl
  right_inv j := by
    funext a
    match a with
    | ⟨0, _⟩ => exact σ.apply_symm_apply _
    | ⟨1, _⟩ => rfl

/-- PERMUTING THE UPDATES OF THE ROW SCATTER: if `idx'`, `upd'` are `idx`, `upd` read through a bijection `σ` of the
    `E` positions (`idx'[e] = idx[σ e]`, `upd'[e, :] = upd[σ e, :]`), the accumulating scatter of `upd'` at `idx'`
    is that of `upd` at `idx`: at each element, the same updates are summed, listed in another order. -/
theorem rows_scatterAdd_reindex (σ : Fin E → Fin E) (hσ : Function.Bijective σ)
    (x : (⟨2, ![N, C]⟩ : Shape).Idx → EReal) (idx idx' : IVec ⟨2, ![E, 1]⟩ w)
    (upd upd' : (⟨2, ![E, C]⟩ : Shape).Idx → EReal)
    (hidx : ∀ e : Fin E, idx' (ix2 e 0) = idx (ix2 (σ e) 0))
    (hupd : ∀ (e : Fin E) (ch : Fin C), upd' (ix2 e ch) = upd (ix2 (σ e) ch)) :
    Ideal.hostScatterAdd (rowsScatterDims N E C wf) x idx' upd' = Ideal.hostScatterAdd (rowsScatterDims N E C wf) x idx upd := by
  funext i
  unfold Ideal.hostScatterAdd
  congr 1
  rw [Finset.sum_filter, Finset.sum_filter]
  refine Fintype.sum_equiv (rowsEquiv (Equiv.ofBijective σ hσ)) _ _ (fun j => ?_)
  obtain ⟨e, ch, rfl⟩ : ∃ e ch, j = ix2 e ch := ⟨j 0, j 1, eq_ix2 j⟩
  show (if (rowsScatterDims N E C wf).resultIdx? (ix2 e ch) idx' = some i then upd' (ix2 e ch) else 0)
    = if (rowsScatterDims N E C wf).resultIdx? (ix2 (σ e) ch) idx = some i then upd (ix2 (σ e) ch) else 0
  rw [rows_resultIdx?_congr wf idx idx' (σ e) e ch (hidx e), hupd e ch]

end Rows

/-! ## The flat scatter `[N] ← [E, 1], [E]` -/

/-- The dimension numbers of `x.at[idx].add(upd)` for a flat table `x : [N]`, indices `idx : [E, 1]` and updates
    `upd : [E]`: no window axis, operand axis 0 inserted and named by the scatter index; the index vector is axis 1 of
    the indices. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

/-- Update `e` starts at the signed word `idx[e, 0]`. -/
theorem flat_start_zero (idx : IVec ⟨2, ![E, 1]⟩ w) (e : Fin E) :
    (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- It has no window: its window coordinate is `0`. -/
theorem flat_window_zero (j : (⟨1, ![E]⟩ : Shape).Idx) : (flatScatterDims N E wf).window j 0 = 0 := by
  unfold ScatterDims.window
  have h : (0 : Fin 1) ∉ (flatScatterDims N E wf).sKept :=
    show (0 : Fin 1) ∉ (List.finRange 1).filter (fun a => a ∉ ([0] : List (Fin 1))) from by decide
  rw [dif_neg h]

/-- Where update `e` lands depends on the index table only through the word `idx[e, 0]`. -/
theorem flat_resultIdx?_congr (idx idx' : IVec ⟨2, ![E, 1]⟩ w) (e e' : Fin E)
    (h : idx' (ix2 e' 0) = idx (ix2 e 0)) :
    (flatScatterDims N E wf).resultIdx? (ix1 e') idx' = (flatScatterDims N E wf).resultIdx? (ix1 e) idx := by
  refine resultIdx?_congr _ _ _ _ _ (fun a => ?_) (fun a => ?_)
  · match a with
    | ⟨0, _⟩ => exact (flat_start_zero wf idx' e').trans ((congrArg BitVec.toInt h).trans (flat_start_zero wf idx e).symm)
  · match a with
    | ⟨0, _⟩ => exact (flat_window_zero wf _).trans (flat_window_zero wf _).symm

/-- A bijection of the `E` positions, as one of the rank-1 indices. -/
def flatEquiv (σ : Fin E ≃ Fin E) : (⟨1, ![E]⟩ : Shape).Idx ≃ (⟨1, ![E]⟩ : Shape).Idx where
  toFun j := ix1 (σ (j 0))
  invFun j := ix1 (σ.symm (j 0))
  left_inv j := by
    funext a
    match a with
    | ⟨0, _⟩ => exact σ.symm_apply_apply _
  right_inv j := by
    funext a
    match a with
    | ⟨0, _⟩ => exact σ.apply_symm_apply _

/-- PERMUTING THE UPDATES OF THE FLAT SCATTER: if `idx'`, `upd'` are `idx`, `upd` read through a bijection `σ` of the
    `E` positions, the accumulating scatter of `upd'` at `idx'` is that of `upd` at `idx`. (For a count — constant
    updates — the hypothesis on the updates holds by `rfl`.) -/
theorem flat_scatterAdd_reindex (σ : Fin E → Fin E) (hσ : Function.Bijective σ)
    (x : (⟨1, ![N]⟩ : Shape).Idx → EReal) (idx idx' : IVec ⟨2, ![E, 1]⟩ w)
    (upd upd' : (⟨1, ![E]⟩ : Shape).Idx → EReal)
    (hidx : ∀ e : Fin E, idx' (ix2 e 0) = idx (ix2 (σ e) 0))
    (hupd : ∀ e : Fin E, upd' (ix1 e) = upd (ix1 (σ e))) :
    Ideal.hostScatterAdd (flatScatterDims N E wf) x idx' upd' = Ideal.hostScatterAdd (flatScatterDims N E wf) x idx upd := by
  funext i
  unfold Ideal.hostScatterAdd
  congr 1
  rw [Finset.sum_filter, Finset.sum_filter]
  refine Fintype.sum_equiv (flatEquiv (Equiv.ofBijective σ hσ)) _ _ (fun j => ?_)
  obtain ⟨e, rfl⟩ : ∃ e, j = ix1 e := ⟨j 0, eq_ix1 j⟩
  show (if (flatScatterDims N E wf).resultIdx? (ix1 e) idx' = some i then upd' (ix1 e) else 0)
    = if (flatScatterDims N E wf).resultIdx? (ix1 (σ e)) idx = some i then upd (ix1 (σ e)) else 0
  rw [flat_resultIdx?_congr wf idx idx' (σ e) e (hidx e), hupd e]

end Flat

/-! ## The gathers read at an index -/

/-- The dimension numbers of `x[idx]` (rows) for a table `x : [N, C]`, indices `idx : [E, 1]` and result `[E, C]`:
    result axis 1 is the offset (a whole row), operand axis 0 is collapsed and is the one the start index names; the
    index vector is axis 1 of the indices; slices are `1 × C`. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section RowsGather
variable {N E C w : Nat} (wf : GatherDims.WF ⟨2, ![N, C]⟩ ⟨2, ![E, 1]⟩ ⟨2, ![E, C]⟩ [1] [0] [] [0] [] 1 ![1, C])

/-- Result element `(e, ch)` reads the row `idx[e, 0]`, signed and clamped into `[0, N − 1]` … -/
theorem rows_operandIdx_zero (idx : IVec ⟨2, ![E, 1]⟩ w) (e : Fin E) (ch : Fin C) :
    ((rowsGatherDims N E C wf).operandIdx (ix2 e ch) idx 0).val = min (idx (ix2 e 0)).toInt.toNat (N - 1) := by
  show (rowsGatherDims N E C wf).start (ix2 e ch) idx 0 + (rowsGatherDims N E C wf).batchCoord (ix2 e ch) 0
    + (rowsGatherDims N E C wf).offCoord (ix2 e ch) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsGatherDims N E C wf).startIndexMap from List.mem_singleton.mpr rfl)]
  have hsi : (rowsGatherDims N E C wf).siIdx (ix2 e ch) ⟨List.idxOf (0 : Fin 2) (rowsGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … at channel `ch`. -/
theorem rows_operandIdx_one (idx : IVec ⟨2, ![E, 1]⟩ w) (e : Fin E) (ch : Fin C) :
    ((rowsGatherDims N E C wf).operandIdx (ix2 e ch) idx 1).val = ch.val := by
  show (rowsGatherDims N E C wf).start (ix2 e ch) idx 1 + (rowsGatherDims N E C wf).batchCoord (ix2 e ch) 1
    + (rowsGatherDims N E C wf).offCoord (ix2 e ch) 1 = _
  rw [GatherDims.batchCoord_eq_zero _ _ _ List.not_mem_nil]
  unfold GatherDims.start
  rw [dif_neg (show (1 : Fin 2) ∉ ([0] : List (Fin 2)) from by decide)]
  unfold GatherDims.offCoord
  have h : (1 : Fin 2) ∈ (rowsGatherDims N E C wf).sKept :=
    (GatherDims.mem_sKept _ _).mpr ⟨show (1 : Fin 2) ∉ ([0] : List (Fin 2)) from by decide, List.not_mem_nil⟩
  rw [dif_pos h]
  simp only [Nat.zero_add, Nat.add_zero]
  rfl

/-- THE ROW GATHER READ AT `(e, ch)`: the table at row `idx[e, 0]` — read signed and clamped into `[0, N − 1]` — and
    channel `ch`. -/
theorem rows_gather_apply {α : Type} (hN : 0 < N)
    (x : (⟨2, ![N, C]⟩ : Shape).Idx → α) (idx : IVec ⟨2, ![E, 1]⟩ w) (e : Fin E) (ch : Fin C) :
    Host.gather (rowsGatherDims N E C wf) x idx (ix2 e ch)
      = x (ix2 ⟨min (idx (ix2 e 0)).toInt.toNat (N - 1), by omega⟩ ch) := by
  unfold Host.gather
  congr 1
  funext a
  refine Fin.ext ?_
  match a with
  | ⟨0, _⟩ => exact rows_operandIdx_zero wf idx e ch
  | ⟨1, _⟩ => exact rows_operandIdx_one wf idx e ch

end RowsGather

/-- The dimension numbers of `x[idx]` for a flat table `x : [M]`, indices `idx : [E, 1]` and result `[E]`: no offset
    axis, operand axis 0 collapsed and named by the start index; the index vector is axis 1 of the indices; slices of
    one element. -/
abbrev flatGatherDims (M E : Nat)
    (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into
    `[0, M − 1]`. -/
theorem flat_gather_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatGatherDims M E wf) x idx (ix1 e) = x (ix1 ⟨min (idx (ix2 e 0)).toInt.toNat (M - 1), by omega⟩) := by
  unfold Host.gather
  congr 1
  funext a
  obtain rfl : a = 0 := Subsingleton.elim _ _
  refine Fin.ext ?_
  show (flatGatherDims M E wf).start (ix1 e) idx 0 + (flatGatherDims M E wf).batchCoord (ix1 e) 0
    + (flatGatherDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims M E wf).startIndexMap from List.mem_singleton.mpr rfl)]
  have hsi : (flatGatherDims M E wf).siIdx (ix1 e) ⟨List.idxOf (0 : Fin 1) (flatGatherDims M E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## An argsort returns the words of a bijection of the positions -/

/-- The second component of a two-operand sort of rank-1 tables along axis 0 reads the second table through ONE
    self-map of the positions: `sortedFrom` of the comparator on the pairs of words. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- … and the first component reads the first table through the same map. -/
theorem sort2_fst_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
      = x (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The rank-1 index at coordinate `k`, in the two notations. -/
theorem ofFin_eq_ix1 {n : Nat} (k : Fin n) : Shape.Idx.ofFin k = ix1 k := by
  funext a
  match a with
  | ⟨0, _⟩ => rfl

/-- AN ARGSORT IS A PERMUTATION: sorting keys together with the iota of their positions, under any comparator, leaves
    in the second table the words of a bijection `σ` of the positions — position `e` holds the word `σ e` — and in the
    first the keys read through `σ`. -/
theorem argsort_perm {E : Nat} (cmp : BitVec 32 × BitVec 32 → BitVec 32 × BitVec 32 → BitVec 1)
    (keys : IVec ⟨1, ![E]⟩ 32) :
    ∃ σ : Fin E → Fin E, Function.Bijective σ ∧
      (∀ e : Fin E, (Host.sort2 ⟨1, ![E]⟩ 0 cmp keys (iotaInDim ⟨1, ![E]⟩ 32 0)).2 (ix1 e) = BitVec.ofNat 32 (σ e).val) ∧
      ∀ e : Fin E, (Host.sort2 ⟨1, ![E]⟩ 0 cmp keys (iotaInDim ⟨1, ![E]⟩ 32 0)).1 (ix1 e) = keys (ix1 (σ e)) := by
  refine ⟨sortedFrom (fun k k' => cmp (keys (Shape.Idx.ofFin k), iotaInDim ⟨1, ![E]⟩ 32 0 (Shape.Idx.ofFin k))
      (keys (Shape.Idx.ofFin k'), iotaInDim ⟨1, ![E]⟩ 32 0 (Shape.Idx.ofFin k')) == 1#1),
    ⟨sortedFrom_injective _, sortedFrom_surjective _⟩, fun e => ?_, fun e => ?_⟩
  · rw [sort2_snd_rank1]
    rfl
  · rw [sort2_fst_rank1]
    exact congrArg keys (ofFin_eq_ix1 _)

/-! ## Position words below `2 ^ 31` -/

/-- A position `k < 2 ^ 31`, written as a 32-bit word and read back SIGNED, is `k`. -/
theorem toInt_ofNat_of_lt {k : Nat} (hk : k < 2 ^ 31) : (BitVec.ofNat 32 k).toInt = (k : Int) := by
  rw [BitVec.toInt_eq_toNat_cond, BitVec.toNat_ofNat]
  have : k % 2 ^ 32 = k := Nat.mod_eq_of_lt (by omega)
  rw [this]
  split
  · rfl
  · omega

/-- … so it is not negative as a signed word … -/
theorem toInt_ofNat_nonneg {k : Nat} (hk : k < 2 ^ 31) : 0 ≤ (BitVec.ofNat 32 k).toInt := by
  rw [toInt_ofNat_of_lt hk]; exact Int.natCast_nonneg k

/-- … and, for a position of a table of `E` entries, the clamp into `[0, E − 1]` leaves it alone. -/
theorem clamp_ofNat_of_lt {E k : Nat} (hE : E < 2 ^ 31) (hk : k < E) :
    min (BitVec.ofNat 32 k).toInt.toNat (E - 1) = k := by
  rw [toInt_ofNat_of_lt (by omega)]
  simp only [Int.toNat_natCast]
  omega

/-! ## Reads through a table of position words, and the gather–scatter pair under a permutation -/

section Perm
variable {E : Nat}

/-- A flat table gathered through the words of a map `σ` of its `E < 2 ^ 31` positions is the table read through
    `σ`: a position word is not negative and below `E`, so the clamp leaves it alone. -/
theorem flat_gather_perm {α : Type} (hE : E < 2 ^ 31)
    (wf : GatherDims.WF ⟨1, ![E]⟩ ⟨2, ![E, 1]⟩ ⟨1, ![E]⟩ [] [0] [] [0] [] 1 ![1])
    (x : (⟨1, ![E]⟩ : Shape).Idx → α) (perm : IVec ⟨2, ![E, 1]⟩ 32) (σ : Fin E → Fin E)
    (hperm : ∀ e : Fin E, perm (ix2 e 0) = BitVec.ofNat 32 (σ e).val) (e : Fin E) :
    Host.gather (flatGatherDims E E wf) x perm (ix1 e) = x (ix1 (σ e)) := by
  rw [flat_gather_apply (Nat.zero_lt_of_lt e.isLt) wf x perm e]
  congr 2
  refine Fin.ext ?_
  show min (perm (ix2 e 0)).toInt.toNat (E - 1) = (σ e).val
  rw [hperm e]
  exact clamp_ofNat_of_lt hE (σ e).isLt

/-- The rows of an `[E, C]` table gathered through the words of a map `σ` of the `E < 2 ^ 31` positions are the rows
    read through `σ`. -/
theorem rows_gather_perm {α : Type} {C : Nat} (hE : E < 2 ^ 31)
    (wf : GatherDims.WF ⟨2, ![E, C]⟩ ⟨2, ![E, 1]⟩ ⟨2, ![E, C]⟩ [1] [0] [] [0] [] 1 ![1, C])
    (x : (⟨2, ![E, C]⟩ : Shape).Idx → α) (perm : IVec ⟨2, ![E, 1]⟩ 32) (σ : Fin E → Fin E)
    (hperm : ∀ e : Fin E, perm (ix2 e 0) = BitVec.ofNat 32 (σ e).val) (e : Fin E) (ch : Fin C) :
    Host.gather (rowsGatherDims E E C wf) x perm (ix2 e ch) = x (ix2 (σ e) ch) := by
  rw [rows_gather_apply wf (Nat.zero_lt_of_lt e.isLt) x perm e ch]
  congr 2
  refine Fin.ext ?_
  show min (perm (ix2 e 0)).toInt.toNat (E - 1) = (σ e).val
  rw [hperm e]
  exact clamp_ofNat_of_lt hE (σ e).isLt

end Perm

section GatherScatter
variable {N E C w : Nat}

/-- Which row result element `(e, ch)` of the row gather reads depends on the index table only through the word
    `idx[e, 0]`. -/
theorem rows_gather_congr {α : Type}
    (wf : GatherDims.WF ⟨2, ![N, C]⟩ ⟨2, ![E, 1]⟩ ⟨2, ![E, C]⟩ [1] [0] [] [0] [] 1 ![1, C])
    (x : (⟨2, ![N, C]⟩ : Shape).Idx → α) (idx idx' : IVec ⟨2, ![E, 1]⟩ w) (e e' : Fin E) (ch : Fin C)
    (h : idx' (ix2 e' 0) = idx (ix2 e 0)) :
    Host.gather (rowsGatherDims N E C wf) x idx' (ix2 e' ch) = Host.gather (rowsGatherDims N E C wf) x idx (ix2 e ch) := by
  unfold Host.gather
  congr 1
  funext a
  refine Fin.ext ?_
  match a with
  | ⟨0, _⟩ =>
    exact (rows_operandIdx_zero wf idx' e' ch).trans
      ((congrArg (fun v : BitVec w => min v.toInt.toNat (N - 1)) h).trans (rows_operandIdx_zero wf idx e ch).symm)
  | ⟨1, _⟩ => exact (rows_operandIdx_one wf idx' e' ch).trans (rows_operandIdx_one wf idx e ch).symm

/-- THE SEGMENT SUM UNDER A PERMUTATION OF THE EDGES: gathering the rows of `x` at source indices and accumulating
    them at destination indices gives the same table when both index tables are read through one bijection `σ` of the
    `E` positions (`src'[e] = src[σ e]`, `dst'[e] = dst[σ e]`) — the messages are then `msg'[e, :] = msg[σ e, :]`, and
    the accumulating scatter does not see the order of its updates. -/
theorem rows_gather_scatterAdd_reindex
    (wfG : GatherDims.WF ⟨2, ![N, C]⟩ ⟨2, ![E, 1]⟩ ⟨2, ![E, C]⟩ [1] [0] [] [0] [] 1 ![1, C])
    {M : Nat} (wfS : ScatterDims.WF ⟨2, ![M, C]⟩ ⟨2, ![E, 1]⟩ ⟨2, ![E, C]⟩ [1] [0] [0] 1)
    (σ : Fin E → Fin E) (hσ : Function.Bijective σ)
    (x : (⟨2, ![N, C]⟩ : Shape).Idx → EReal) (acc : (⟨2, ![M, C]⟩ : Shape).Idx → EReal)
    (src src' dst dst' : IVec ⟨2, ![E, 1]⟩ w)
    (hsrc : ∀ e : Fin E, src' (ix2 e 0) = src (ix2 (σ e) 0))
    (hdst : ∀ e : Fin E, dst' (ix2 e 0) = dst (ix2 (σ e) 0)) :
    Ideal.hostScatterAdd (rowsScatterDims M E C wfS) acc dst' (Host.gather (rowsGatherDims N E C wfG) x src')
      = Ideal.hostScatterAdd (rowsScatterDims M E C wfS) acc dst (Host.gather (rowsGatherDims N E C wfG) x src) :=
  rows_scatterAdd_reindex wfS σ hσ acc dst dst' _ _ hdst
    (fun e ch => rows_gather_congr wfG x src src' (σ e) e ch (hsrc e))

end GatherScatter

end Idealize.ShloMosaic.SegmentSum

end
-- ==== Proof.RefScatter.lean ====
/-
  An accumulating scatter whose scatter index names one operand axis, read at an element.

  Update `j` lands at the operand element `i` exactly when, on every operand axis, the window start (the signed index
  word on the named axis, 0 elsewhere) plus the window coordinate is `i`'s coordinate. For the row scatter
  `[256, 256] ← [262144, 1], [262144, 256]` this says: the label word of the update's row is the word of the class and
  the update's channel is the element's channel. Summing the updates that land at `(c, d)` is therefore the sum over all
  rows of the row's channel-`d` entry when its label is `c`: the class sum. For the flat scatter of ones it is the class
  count.
-/
import proofs.«113808_j15951508537566_2_alg».proof.Proof.Spec
import proofs.«113808_j15951508537566_2_alg».proof.Proof.LibSegmentSum

noncomputable section

open scoped BigOperators

namespace Cert.RefScatter

open Idealize.ShloMosaic Idealize.ShloMosaic.ValueIdx Idealize.ShloMosaic.SegmentSum

/-- An update lands at `i` iff start plus window coordinate is `i`'s coordinate on every operand axis. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f : s.Idx => ((f a).val : Int)) e'
      simp only at this
      rw [← this]
      exact (Int.toNat_of_nonneg (h a).1).symm
    · intro H
      refine congrArg some (funext fun a => Fin.ext ?_)
      show (d.start j idx a + (d.window j a : Int)).toNat = (i a).val
      rw [H a]
      exact Int.toNat_natCast _
  · rename_i h
    constructor
    · intro e; exact absurd e (by simp)
    · intro H
      exact absurd (fun a => by rw [H a]; exact ⟨Int.natCast_nonneg _, by exact_mod_cast (i a).isLt⟩) h

/-- A label word equals the word of a class below 256 iff its signed value is the class. -/
theorem toInt_eq_iff (v : BitVec 32) (c : Fin 256) : v.toInt = (c.val : Int) ↔ v = BitVec.ofNat 32 c.val := by
  have hc : c.val < 2 ^ 31 := lt_of_lt_of_le c.isLt (by norm_num)
  constructor
  · intro h
    exact BitVec.eq_of_toInt_eq (h.trans (toInt_ofNat_of_lt hc).symm)
  · intro h
    rw [h]; exact toInt_ofNat_of_lt hc

section Rows
variable (wf : ScatterDims.WF ⟨2, ![256, 256]⟩ ⟨2, ![262144, 1]⟩ ⟨2, ![262144, 256]⟩ [1] [0] [0] 1)

/-- Row update `(e, ch)` lands at `(c, d)` iff row `e`'s label is the word of `c` and `ch = d`. -/
theorem rows_lands_iff (lab : Cert.Spec.Lab) (e : Fin 262144) (ch c d : Fin 256) :
    (rowsScatterDims 256 262144 256 wf).resultIdx? (ix2 e ch) lab = some (ix2 c d)
      ↔ (lab (ix2 e 0) = BitVec.ofNat 32 c.val ∧ ch = d) := by
  rw [resultIdx?_eq_some_iff, Fin.forall_fin_two]
  rw [rows_start_zero wf lab e ch, rows_start_one wf lab, rows_window_zero wf, rows_window_one wf]
  show ((lab (ix2 e 0)).toInt + ((0 : Nat) : Int) = (c.val : Int) ∧ (0 : Int) + (ch.val : Int) = (d.val : Int)) ↔ _
  rw [Nat.cast_zero, add_zero, zero_add, toInt_eq_iff]
  refine and_congr Iff.rfl ?_
  constructor
  · intro h; exact Fin.ext (by exact_mod_cast h)
  · intro h; rw [h]

/-- THE CLASS SUMS: the row scatter of the table at the label column into zeros is, at `(c, d)`, the sum over the
    rows of class `c` of channel `d`. -/
theorem rows_scatter_apply (x : Cert.Spec.Tab) (lab : Cert.Spec.Lab) (c d : Fin 256) :
    Ideal.hostScatterAdd (rowsScatterDims 256 262144 256 wf) (fun _ => 0) lab x (ix2 c d)
      = Cert.Spec.segSum x lab c d := by
  unfold Ideal.hostScatterAdd
  rw [zero_add, Finset.sum_filter, sum_idx2]
  unfold Cert.Spec.segSum
  rw [Finset.sum_range]
  refine Finset.sum_congr rfl fun e _ => ?_
  unfold Cert.Spec.term
  rw [dif_pos e.isLt]
  simp only [rows_lands_iff wf lab e _ c d]
  by_cases hl : lab (ix2 e 0) = BitVec.ofNat 32 c.val
  · simp only [hl, true_and]
    rw [Finset.sum_ite_eq' Finset.univ d (fun ch => x (ix2 e ch)), if_pos (Finset.mem_univ _)]
    simp
  · simp only [hl, false_and, if_false, Finset.sum_const_zero]

end Rows

section Flat
variable (wf : ScatterDims.WF ⟨1, ![256]⟩ ⟨2, ![262144, 1]⟩ ⟨1, ![262144]⟩ [] [0] [0] 1)

/-- Flat update `e` lands at `c` iff row `e`'s label is the word of `c`. -/
theorem flat_lands_iff (lab : Cert.Spec.Lab) (e : Fin 262144) (c : Fin 256) :
    (flatScatterDims 256 262144 wf).resultIdx? (ix1 e) lab = some (ix1 c)
      ↔ lab (ix2 e 0) = BitVec.ofNat 32 c.val := by
  rw [resultIdx?_eq_some_iff]
  constructor
  · intro H
    have h0 := H 0
    rw [flat_start_zero wf lab e, flat_window_zero wf] at h0
    exact (toInt_eq_iff _ c).mp (by simpa using h0)
  · intro h a
    obtain rfl : a = 0 := Subsingleton.elim _ _
    rw [flat_start_zero wf lab e, flat_window_zero wf]
    show (lab (ix2 e 0)).toInt + ((0 : Nat) : Int) = (c.val : Int)
    rw [Nat.cast_zero, add_zero]
    exact (toInt_eq_iff _ c).mpr h

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

/-- THE CLASS COUNTS: the flat scatter of ones at the label column into zeros is, at `c`, the number of rows of
    class `c`. -/
theorem flat_scatter_apply (lab : Cert.Spec.Lab) (c : Fin 256) :
    Ideal.hostScatterAdd (flatScatterDims 256 262144 wf) (fun _ => 0) lab (fun _ => (1 : EReal)) (ix1 c)
      = Cert.Spec.segCnt lab c := by
  unfold Ideal.hostScatterAdd
  rw [zero_add, Finset.sum_filter, sum_idx1]
  unfold Cert.Spec.segCnt
  rw [Finset.sum_range]
  refine Finset.sum_congr rfl fun e _ => ?_
  unfold Cert.Spec.unit
  rw [dif_pos e.isLt]
  simp only [flat_lands_iff wf lab e c]

end Flat

end Cert.RefScatter

end
-- ==== Proof.RefMean.lean ====
/-
  The reference's class means and their squared lengths.

  The class sums are the row scatter of the table at the label column into zeros, the class counts the flat scatter of
  ones; the mean of class `c` at channel `d` is the sum divided by the count plus ε, and the squared length of each
  mean is the sum over its channels of the squares.
-/
import proofs.«113808_j15951508537566_2_alg».proof.Proof.Spec
import proofs.«113808_j15951508537566_2_alg».proof.Proof.RefScatter
import proofs.«113808_j15951508537566_2_alg».proof.Proof.Gen.ReferenceIdeal.Read
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

variable (x0 : (⟨S262144x256, .f32⟩ : BufTy).Contents (Elt Ideal)) (x1 : (⟨S262144, .i32⟩ : BufTy).Contents (Elt Ideal))

/-- The labels broadcast to a column are the label column. -/
theorem v14_eq : val_main_v14 (F := Ideal) x1 = Cert.Spec.col x1 := by
  funext i
  rw [val_main_v14_apply]
  exact congrArg x1 (funext fun a => by match a with | ⟨0, _⟩ => rfl)

theorem v18_eq : val_main_v18 (F := Ideal) x1 = Cert.Spec.col x1 := by
  funext i
  rw [val_main_v18_apply]
  exact congrArg x1 (funext fun a => by match a with | ⟨0, _⟩ => rfl)

/-- The zero tables and the table of ones. -/
theorem v13_eq : val_main_v13 (F := Ideal) = fun _ => (0 : EReal) := by
  funext i
  rw [val_main_v13_apply, val_main_cst_3_apply, Ideal.ofBits_def, Ideal.ofBits_zero_f32]

theorem v17_eq : val_main_v17 (F := Ideal) = fun _ => (0 : EReal) := by
  funext i
  rw [val_main_v17_apply, val_main_cst_5_apply, Ideal.ofBits_def, Ideal.ofBits_zero_f32]

theorem v16_eq : val_main_v16 (F := Ideal) = fun _ => (1 : EReal) := by
  funext i
  rw [val_main_v16_apply, val_main_cst_4_apply, Ideal.ofBits_def, Ideal.ofBits_one_f32]

/-- The printed dimension numbers of the two scatters are those of a row scatter and of a flat scatter. -/
theorem rows_record : scatter_S256x256_S262144x1_S262144x256_1_0_0_1
    = SegmentSum.rowsScatterDims 256 262144 256 Facts₀.scatter_S256x256_S262144x1_S262144x256_1_0_0_1_wf := rfl
theorem flat_record : scatter_S256_S262144x1_S262144_n_0_0_1
    = SegmentSum.flatScatterDims 256 262144 Facts₀.scatter_S256_S262144x1_S262144_n_0_0_1_wf := rfl

/-- The class sums' scatter as the ideal accumulating scatter of the table at the label column into zeros. -/
theorem v15_fn : val_main_v15 (F := Ideal) x0 x1
    = Host.scatterAdd (F := Ideal) (φ := .f32) scatter_S256x256_S262144x1_S262144x256_1_0_0_1 (fun _ => (0 : EReal)) (Cert.Spec.col x1) x0 := by
  unfold val_main_v15
  rw [v13_eq, v14_eq]

theorem v15_dims : Host.scatterAdd (F := Ideal) (φ := .f32) scatter_S256x256_S262144x1_S262144x256_1_0_0_1 (fun _ => (0 : EReal)) (Cert.Spec.col x1) x0
    = Ideal.hostScatterAdd (SegmentSum.rowsScatterDims 256 262144 256 Facts₀.scatter_S256x256_S262144x1_S262144x256_1_0_0_1_wf)
        (fun _ => (0 : EReal)) (Cert.Spec.col x1) x0 := by
  simp only [Host.scatterAdd, Ideal.hostScatterAdd_def]
  rw [rows_record]

/-- The class sums. -/
theorem v15_apply (c d : Fin 256) :
    val_main_v15 (F := Ideal) x0 x1 (ix2 c d) = Cert.Spec.segSum x0 (Cert.Spec.col x1) c d := by
  rw [v15_fn, v15_dims]
  exact Cert.RefScatter.rows_scatter_apply _ x0 (Cert.Spec.col x1) c d

/-- The class counts' scatter as the ideal accumulating scatter of ones at the label column into zeros. -/
theorem v19_fn : val_main_v19 (F := Ideal) x1
    = Host.scatterAdd (F := Ideal) (φ := .f32) scatter_S256_S262144x1_S262144_n_0_0_1 (fun _ => (0 : EReal)) (Cert.Spec.col x1) (fun _ => (1 : EReal)) := by
  unfold val_main_v19
  rw [v17_eq, v18_eq, v16_eq]

theorem v19_dims : Host.scatterAdd (F := Ideal) (φ := .f32) scatter_S256_S262144x1_S262144_n_0_0_1 (fun _ => (0 : EReal)) (Cert.Spec.col x1) (fun _ => (1 : EReal))
    = Ideal.hostScatterAdd (SegmentSum.flatScatterDims 256 262144 Facts₀.scatter_S256_S262144x1_S262144_n_0_0_1_wf)
        (fun _ => (0 : EReal)) (Cert.Spec.col x1) (fun _ => (1 : EReal)) := by
  simp only [Host.scatterAdd, Ideal.hostScatterAdd_def]
  rw [flat_record]

/-- The class counts. -/
theorem v19_apply (c : Fin 256) :
    val_main_v19 (F := Ideal) x1 (ix1 c) = Cert.Spec.segCnt (Cert.Spec.col x1) c := by
  rw [v19_fn, v19_dims]
  exact Cert.RefScatter.flat_scatter_apply _ (Cert.Spec.col x1) c

/-- The class means. -/
theorem v24_eq : val_main_v24 (F := Ideal) x0 x1 = Cert.Spec.meanMat x0 (Cert.Spec.col x1) := by
  funext i
  obtain ⟨c, d, rfl⟩ : ∃ (c : Fin 256) (d : Fin 256), i = ix2 c d := ⟨i 0, i 1, eq_ix2 i⟩
  rw [val_main_v24_apply, v15_apply, val_main_v23_apply, val_main_v22_apply, val_main_v20_apply, val_main_v21_apply,
    val_main_cst_6_apply]
  have e : idx_main_v20 (idx_main_v23 (ix2 c d)) = ix1 c := funext fun a => by match a with | ⟨0, _⟩ => rfl
  rw [e, v19_apply, Ideal.hostDivf_def, Ideal.addf_def, Ideal.ofBits_def]
  rfl

/-- A matrix's rows' squared lengths, read at a class. -/
theorem sqRow_apply (cm : Cert.Spec.Mat) (z : Fin 1) (j : Fin 256) :
    Cert.Spec.sqRow cm (ix2 z j) = ∑ k : Fin 256, cm (ix2 j k) * cm (ix2 j k) := rfl

/-- The squared length of class mean `j`. -/
theorem v30_apply (z : Fin 1) (j : Fin 256) : val_main_v30 (F := Ideal) x0 x1 (ix2 z j)
    = ∑ k : Fin 256, val_main_v24 (F := Ideal) x0 x1 (ix2 j k) * val_main_v24 (F := Ideal) x0 x1 (ix2 j k) := by
  rw [val_main_v30_apply, val_main_v29_apply, val_main_cst_8_apply]
  simp only [val_main_v28_apply]
  generalize val_main_v24 (F := Ideal) x0 x1 = cm
  have e : ∀ k : Fin 256, idx_main_v29 (idx_main_v30 (ix2 z j)) k = ix2 j k := fun k =>
    funext fun a => Fin.ext (by match a with | ⟨0, _⟩ => rfl | ⟨1, _⟩ => rfl)
  simp only [e, Ideal.ofBits_def, Ideal.mulf_def]
  rw [Ideal.ofBits_zero_f32, zero_add]

/-- The squared lengths of the class means, as a row. -/
theorem v30_eq : val_main_v30 (F := Ideal) x0 x1 = Cert.Spec.sqRow (val_main_v24 (F := Ideal) x0 x1) := by
  funext i
  obtain ⟨z, j, rfl⟩ : ∃ (z : Fin 1) (j : Fin 256), i = ix2 z j := ⟨i 0, i 1, eq_ix2 i⟩
  rw [v30_apply, sqRow_apply]

end Cert.ReferenceIdeal.RefValue

end
-- ==== Proof.RefRow.lean ====
/-
  The reference's result at an element.

  Per row `n` and class `j`: the table divided by 1 is the table; the row maximum is the fold of `max` from −∞; the
  softmax is the exponential of the entry minus the maximum over the sum of those exponentials; the squared distance to
  the class mean `j` is |x|² + |μ|² − 2⟨x, μ⟩ (the inner product through the transposed means), clipped at 0; the
  weight is softmax · exp(−root/10), and the result is the weight over the sum of the row's weights.
-/
import proofs.«113808_j15951508537566_2_alg».proof.Proof.Spec
import proofs.«113808_j15951508537566_2_alg».proof.Proof.Gen.ReferenceIdeal.Read
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

variable (x0 : (⟨S262144x256, .f32⟩ : BufTy).Contents (Elt Ideal)) (x1 : (⟨S262144, .i32⟩ : BufTy).Contents (Elt Ideal))

/-- The word of −∞. -/
theorem ofBits_negInf : Ideal.ofBits .f32 0xFF800000#32 = (⊥ : EReal) := by simp [Ideal.ofBits, Ideal.ieee]

/-- A quotient by one is the numerator. -/
theorem div_one' (x : EReal) : Ideal.div x 1 = x := by
  unfold Ideal.div
  rw [if_neg one_ne_zero]
  simp

/-- The table divided by the broadcast 1.0 is the table. -/
theorem v1_eq : val_main_v1 (F := Ideal) x0 = x0 := by
  funext i
  rw [val_main_v1_apply, val_main_v0_apply, val_main_cst_apply]
  show Ideal.div (x0 i) (Ideal.ofBits .f32 0x3F800000#32) = x0 i
  rw [Ideal.ofBits_one_f32, div_one']

/-- Row `n` with the channel `k` put back. -/
theorem lift_row (h : S262144x256.Reduces [1] S262144) (n : Fin 262144) (k : Fin (S262144x256.size 1)) :
    h.lift (ix1 n) k = ix2 n (⟨k.val, k.isLt⟩ : Fin 256) := by
  funext c; apply Fin.ext
  fin_cases c <;> rfl

/-- The row maximum. -/
theorem v2_apply (n : Fin 262144) : val_main_v2 (F := Ideal) x0 (ix1 n) = Cert.Spec.rowMax x0 n := by
  unfold val_main_v2
  rw [v1_eq]
  have h : S262144x256.Reduces [1] S262144 := by decide
  refine (Host.reduce_eq_fold_single (FloatOps.maximumf (F := Ideal) (φ := .f32)) x0 (val_main_cst_0 (F := Ideal)) _ h _
    (ix1 n)).trans ?_
  rw [val_main_cst_0_apply]
  show Finset.fold max (Ideal.ofBits .f32 0xFF800000#32) _ _ = _
  rw [ofBits_negInf]
  unfold Cert.Spec.rowMax
  exact congrArg (fun f => Finset.fold max ⊥ f (Finset.univ : Finset (Fin 256)))
    (funext fun k => congrArg x0 (lift_row h n k))

theorem v4_apply (n : Fin 262144) : val_main_v4 (F := Ideal) x0 (ix1 n) = Cert.Spec.rowMax x0 n := by
  rw [val_main_v4_apply, val_main_v3_apply, val_main_cst_1_apply, v2_apply]
  show max (Ideal.ofBits .f32 0xFF800000#32) _ = _
  rw [ofBits_negInf]
  exact max_bot_left _

theorem v6_apply (n : Fin 262144) (k : Fin 256) : val_main_v6 (F := Ideal) x0 (ix2 n k) = Cert.Spec.rowMax x0 n := by
  rw [val_main_v6_apply, val_main_v5_apply]
  have e : idx_main_v5 (idx_main_v6 (ix2 n k)) = ix1 n := funext fun a => by match a with | ⟨0, _⟩ => rfl
  rw [e, v4_apply]

/-- The softmax's numerator. -/
theorem v8_apply (n : Fin 262144) (k : Fin 256) : val_main_v8 (F := Ideal) x0 (ix2 n k) = Cert.Spec.sexp x0 n k := by
  rw [val_main_v8_apply, val_main_v7_apply, v1_eq, v6_apply]
  rfl

/-- The softmax's denominator. -/
theorem v11_apply (n : Fin 262144) (k : Fin 256) :
    val_main_v11 (F := Ideal) x0 (ix2 n k) = ∑ k' : Fin 256, Cert.Spec.sexp x0 n k' := by
  rw [val_main_v11_apply, val_main_v10_apply]
  have e : idx_main_v10 (idx_main_v11 (ix2 n k)) = ix1 n := funext fun a => by match a with | ⟨0, _⟩ => rfl
  rw [e, val_main_v9_apply, val_main_cst_2_apply]
  have e9 : ∀ k' : Fin 256, idx_main_v9 (ix1 n) k' = ix2 n k' := fun k' =>
    funext fun a => Fin.ext (by match a with | ⟨0, _⟩ => rfl | ⟨1, _⟩ => rfl)
  simp only [e9, v8_apply]
  show Ideal.ofBits .f32 0x00000000#32 + _ = _
  rw [Ideal.ofBits_zero_f32, zero_add]

/-- The softmax. -/
theorem v12_apply (n : Fin 262144) (k : Fin 256) : val_main_v12 (F := Ideal) x0 (ix2 n k) = Cert.Spec.soft x0 n k := by
  rw [val_main_v12_apply, v8_apply, v11_apply]
  rfl

/-- The row's squared length, broadcast along the classes. -/
theorem v31_apply (n : Fin 262144) (j : Fin 256) : val_main_v31 (F := Ideal) x0 (ix2 n j) = Cert.Spec.sqn x0 n := by
  rw [val_main_v31_apply, val_main_v27_apply]
  have e : idx_main_v27 (idx_main_v31 (ix2 n j)) = ix1 n := funext fun a => by match a with | ⟨0, _⟩ => rfl
  rw [e, val_main_v26_apply, val_main_cst_7_apply]
  have e26 : ∀ k : Fin 256, idx_main_v26 (ix1 n) k = ix2 n k := fun k =>
    funext fun a => Fin.ext (by match a with | ⟨0, _⟩ => rfl | ⟨1, _⟩ => rfl)
  simp only [val_main_v25_apply, e26]
  show Ideal.ofBits .f32 0x00000000#32 + _ = _
  rw [Ideal.ofBits_zero_f32, zero_add]
  rfl

/-- The class means' squared lengths, broadcast along the rows. -/
theorem v32_apply (n : Fin 262144) (j : Fin 256) :
    val_main_v32 (F := Ideal) x0 x1 (ix2 n j) = val_main_v30 (F := Ideal) x0 x1 (ix2 0 j) := by
  rw [val_main_v32_apply]
  exact congrArg (val_main_v30 (F := Ideal) x0 x1)
    (funext fun a => Fin.ext (by match a with | ⟨0, _⟩ => rfl | ⟨1, _⟩ => rfl))

/-- The inner product of row `n` with class mean `j`. -/
theorem v35_apply (n : Fin 262144) (j : Fin 256) :
    val_main_v35 (F := Ideal) x0 x1 (ix2 n j) = Cert.Spec.cross x0 (val_main_v24 (F := Ideal) x0 x1) n j := by
  rw [val_main_v35_apply]
  unfold Cert.Spec.cross
  refine Finset.sum_congr rfl fun k _ => ?_
  rw [val_main_v34_apply]
  have el : lidx_main_v35 (ix2 n j) k = ix2 n k :=
    funext fun a => Fin.ext (by match a with | ⟨0, _⟩ => rfl | ⟨1, _⟩ => rfl)
  have er : idx_main_v34 (ridx_main_v35 (ix2 n j) k) = ix2 j k :=
    funext fun a => Fin.ext (by match a with | ⟨0, _⟩ => rfl | ⟨1, _⟩ => rfl)
  rw [el, er]

/-- The squared distance, expanded. -/
theorem v38_apply (n : Fin 262144) (j : Fin 256) :
    val_main_v38 (F := Ideal) x0 x1 (ix2 n j)
      = Cert.Spec.dist2 x0 (val_main_v24 (F := Ideal) x0 x1) (val_main_v30 (F := Ideal) x0 x1) n j := by
  rw [val_main_v38_apply, val_main_v33_apply, v31_apply, v32_apply, val_main_v37_apply, val_main_v36_apply,
    val_main_cst_9_apply, v35_apply]
  rfl

/-- The unnormalised weight. -/
theorem v45_apply (n : Fin 262144) (j : Fin 256) :
    val_main_v45 (F := Ideal) x0 x1 (ix2 n j)
      = Cert.Spec.wgt x0 (val_main_v24 (F := Ideal) x0 x1) (val_main_v30 (F := Ideal) x0 x1) n j := by
  rw [val_main_v45_apply, v12_apply, val_main_v44_apply, val_main_v43_apply, val_main_v42_apply, val_main_cst_11_apply,
    val_main_v41_apply, val_main_v40_apply, v38_apply, val_main_v39_apply, val_main_cst_10_apply]
  simp only [Ideal.ofBits_def, Ideal.ofBits_zero_f32]
  rfl

/-- The result at row `n`, class `j`. -/
theorem v49_apply (n : Fin 262144) (j : Fin 256) :
    val_main_v49 (F := Ideal) x0 x1 (ix2 n j)
      = Cert.Spec.out x0 (val_main_v24 (F := Ideal) x0 x1) (val_main_v30 (F := Ideal) x0 x1) n j := by
  rw [val_main_v49_apply, v45_apply, val_main_v48_apply, val_main_v47_apply]
  have e : idx_main_v47 (idx_main_v48 (ix2 n j)) = ix1 n := funext fun a => by match a with | ⟨0, _⟩ => rfl
  rw [e, val_main_v46_apply, val_main_cst_12_apply]
  have e46 : ∀ k : Fin 256, idx_main_v46 (ix1 n) k = ix2 n k := fun k =>
    funext fun a => Fin.ext (by match a with | ⟨0, _⟩ => rfl | ⟨1, _⟩ => rfl)
  simp only [e46, v45_apply]
  show Ideal.div _ (Ideal.ofBits .f32 0x00000000#32 + _) = _
  rw [Ideal.ofBits_zero_f32, zero_add]
  rfl

/-- The reference's result as a function of the table, the class means and their squared lengths. -/
theorem v49_eq : val_main_v49 (F := Ideal) x0 x1
    = fun i => Cert.Spec.out x0 (val_main_v24 (F := Ideal) x0 x1) (val_main_v30 (F := Ideal) x0 x1) (i 0) (i 1) := by
  funext i
  obtain ⟨n, j, rfl⟩ : ∃ (n : Fin 262144) (j : Fin 256), i = ix2 n j := ⟨i 0, i 1, eq_ix2 i⟩
  exact v49_apply x0 x1 n j

end Cert.ReferenceIdeal.RefValue

end
-- ==== Proof.Ref.lean ====
/-
  The reference's value: the result of the specification at the table and the label column.
-/
import proofs.«113808_j15951508537566_2_alg».proof.Proof.Spec
import proofs.«113808_j15951508537566_2_alg».proof.Proof.RefMean
import proofs.«113808_j15951508537566_2_alg».proof.Proof.RefRow
import proofs.«113808_j15951508537566_2_alg».proof.Proof.Gen.ReferenceIdeal.Read

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-- The reference computes, at every row and class, the normalised weight of the specification, over the class means
    of the table by the label column and their squared lengths. -/
theorem ref_eq (x0 : (⟨S262144x256, .f32⟩ : BufTy).Contents (Elt Ideal)) (x1 : (⟨S262144, .i32⟩ : BufTy).Contents (Elt Ideal)) :
    val_main_v49 (F := Ideal) x0 x1 = Cert.Spec.final x0 (Cert.Spec.col x1) := by
  rw [v49_eq, v30_eq, v24_eq]
  rfl

end Cert.ReferenceIdeal.RefValue

end
-- ==== Proof.LibScatterAddRead.lean ====
/-
  An accumulating scatter read at one element as a sum over the update positions.

  `x.at[idx].add(upd)` is a `stablehlo.scatter` with an `add` body over `E` scatter indices. At the ideal values its
  result at an operand element is the operand there plus the sum of the updates that LAND there. An update lands at an
  element exactly when, on every operand axis, its window start (the index word read signed, not clamped, on the axis
  the scatter index names; 0 on the others) plus its window coordinate is the element's coordinate; an update whose
  start falls outside the operand lands nowhere. For the row scatter `[N, C] ← [E, 1], [E, C]` update `(e, ch)` lands at
  `(c, d)` iff the signed word `idx[e, 0]` is `c` and `ch = d`, so the result at `(c, d)` is
  `x[c, d] + ∑ e, (if idx[e, 0] = c then upd[e, d] else 0)` — a segment sum written as a sum over ALL positions of a term
  that vanishes off the segment. The same for the flat scatter `[N] ← [E, 1], [E]` (a count, with constant updates).
  The dimension records are those of the permutation lemmas for the same two scatters (`rowsScatterDims`,
  `flatScatterDims`).
-/
import Idealize.ShloMosaic.PureOps.Ideal
import Idealize.ShloMosaic.Lib.ValueIdx
import proofs.«113808_j15951508537566_2_alg».proof.Proof.LibSegmentSum

noncomputable section

open scoped BigOperators

namespace Idealize.ShloMosaic.ScatterAddRead

open Idealize.ShloMosaic Idealize.ShloMosaic.ValueIdx Idealize.ShloMosaic.SegmentSum

/-- An update lands at `i` iff start plus window coordinate is `i`'s coordinate on every operand axis (in particular
    the sum is then inside the operand on every axis; otherwise the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f : s.Idx => ((f a).val : Int)) e'
      simp only at this
      rw [← this]
      exact (Int.toNat_of_nonneg (h a).1).symm
    · intro H
      refine congrArg some (funext fun a => Fin.ext ?_)
      show (d.start j idx a + (d.window j a : Int)).toNat = (i a).val
      rw [H a]
      exact Int.toNat_natCast _
  · rename_i h
    constructor
    · intro e; exact absurd e (by simp)
    · intro H
      exact absurd (fun a => by rw [H a]; exact ⟨Int.natCast_nonneg _, by exact_mod_cast (i a).isLt⟩) h

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

section Rows
variable {N E C w : Nat} (wf : ScatterDims.WF ⟨2, ![N, C]⟩ ⟨2, ![E, 1]⟩ ⟨2, ![E, C]⟩ [1] [0] [0] 1)

/-- Row update `(e, ch)` lands at `(c, d)` iff the signed index word of position `e` is `c` and `ch = d`. -/
theorem rows_lands_iff (idx : IVec ⟨2, ![E, 1]⟩ w) (e : Fin E) (ch : Fin C) (c : Fin N) (d : Fin C) :
    (rowsScatterDims N E C wf).resultIdx? (ix2 e ch) idx = some (ix2 c d)
      ↔ ((idx (ix2 e 0)).toInt = (c.val : Int) ∧ ch = d) := by
  rw [resultIdx?_eq_some_iff, Fin.forall_fin_two]
  rw [rows_start_zero wf idx e ch, rows_start_one wf idx, rows_window_zero wf, rows_window_one wf]
  show ((idx (ix2 e 0)).toInt + ((0 : Nat) : Int) = (c.val : Int) ∧ (0 : Int) + (ch.val : Int) = (d.val : Int)) ↔ _
  rw [Nat.cast_zero, add_zero, zero_add]
  refine and_congr Iff.rfl ?_
  constructor
  · intro h; exact Fin.ext (by exact_mod_cast h)
  · intro h; rw [h]

/-- THE ROW SCATTER AT `(c, d)`: the operand there plus, over all positions `e`, update row `e`'s channel `d` when the
    signed index word of `e` is `c`. -/
theorem rows_scatterAdd_apply (x : (⟨2, ![N, C]⟩ : Shape).Idx → EReal) (idx : IVec ⟨2, ![E, 1]⟩ w)
    (upd : (⟨2, ![E, C]⟩ : Shape).Idx → EReal) (c : Fin N) (d : Fin C) :
    Ideal.hostScatterAdd (rowsScatterDims N E C wf) x idx upd (ix2 c d)
      = x (ix2 c d) + ∑ e : Fin E, if (idx (ix2 e 0)).toInt = (c.val : Int) then upd (ix2 e d) else 0 := by
  unfold Ideal.hostScatterAdd
  refine congrArg (x (ix2 c d) + ·) ?_
  rw [Finset.sum_filter, sum_idx2]
  refine Finset.sum_congr rfl fun e _ => ?_
  simp only [rows_lands_iff wf idx e _ c d]
  by_cases hl : (idx (ix2 e 0)).toInt = (c.val : Int)
  · simp only [hl, true_and, if_true]
    rw [Finset.sum_ite_eq' Finset.univ d (fun ch => upd (ix2 e ch)), if_pos (Finset.mem_univ _)]
  · simp only [hl, false_and, if_false, Finset.sum_const_zero]

end Rows

section Flat
variable {N E w : Nat} (wf : ScatterDims.WF ⟨1, ![N]⟩ ⟨2, ![E, 1]⟩ ⟨1, ![E]⟩ [] [0] [0] 1)

/-- Flat update `e` lands at `c` iff the signed index word of position `e` is `c`. -/
theorem flat_lands_iff (idx : IVec ⟨2, ![E, 1]⟩ w) (e : Fin E) (c : Fin N) :
    (flatScatterDims N E wf).resultIdx? (ix1 e) idx = some (ix1 c) ↔ (idx (ix2 e 0)).toInt = (c.val : Int) := by
  rw [resultIdx?_eq_some_iff]
  constructor
  · intro H
    have h0 := H 0
    rw [flat_start_zero wf idx e, flat_window_zero wf] at h0
    have h1 : (idx (ix2 e 0)).toInt + ((0 : Nat) : Int) = (c.val : Int) := h0
    rw [Nat.cast_zero, add_zero] at h1
    exact h1
  · intro h a
    obtain rfl : a = 0 := Subsingleton.elim _ _
    rw [flat_start_zero wf idx e, flat_window_zero wf]
    show (idx (ix2 e 0)).toInt + ((0 : Nat) : Int) = (c.val : Int)
    rw [Nat.cast_zero, add_zero]
    exact h

/-- THE FLAT SCATTER AT `c`: the operand there plus, over all positions `e`, update `e` when the signed index word of
    `e` is `c` (with constant updates `1`: the number of positions whose word is `c`). -/
theorem flat_scatterAdd_apply (x : (⟨1, ![N]⟩ : Shape).Idx → EReal) (idx : IVec ⟨2, ![E, 1]⟩ w)
    (upd : (⟨1, ![E]⟩ : Shape).Idx → EReal) (c : Fin N) :
    Ideal.hostScatterAdd (flatScatterDims N E wf) x idx upd (ix1 c)
      = x (ix1 c) + ∑ e : Fin E, if (idx (ix2 e 0)).toInt = (c.val : Int) then upd (ix1 e) else 0 := by
  unfold Ideal.hostScatterAdd
  refine congrArg (x (ix1 c) + ·) ?_
  rw [Finset.sum_filter, sum_idx1]
  refine Finset.sum_congr rfl fun e _ => ?_
  simp only [flat_lands_iff wf idx e c]

end Flat

/-- A 32-bit index word equals the word of a position `c < 2 ^ 31` iff its signed value is `c`: with it the
    conditions above read "the index word is the word of `c`". -/
theorem toInt_eq_iff_eq_ofNat (v : BitVec 32) {c : Nat} (hc : c < 2 ^ 31) :
    v.toInt = (c : Int) ↔ v = BitVec.ofNat 32 c := by
  constructor
  · intro h
    exact BitVec.eq_of_toInt_eq (h.trans (toInt_ofNat_of_lt hc).symm)
  · intro h
    rw [h]; exact toInt_ofNat_of_lt hc

end Idealize.ShloMosaic.ScatterAddRead

end
-- ==== Proof.lean ====
/-
  The certificate's claim.

  Both programs compute, from a table of 262144 rows of 256 channels and one label per row, per row the weights
  softmax(row) · exp(−distance(row, class mean j)/10) normalised over the 256 classes j, the class means being the
  per-class sums of the rows by label over the per-class counts plus ε (Proof/Spec.lean states this once, as `final`).
  The kernel does it in two calls: the first accumulates, over blocks of 4096 rows and separately for the two halves of
  the rows, the class sums and counts as products with the rows' one-hot label matrix (Proof/Acc.lean); the host adds the
  halves and divides (Proof/Glue.lean); the second call computes the weights block by block (Proof/Fin.lean);
  Proof/KernelRun.lean threads these through the run. The reference sums by an accumulating scatter and works on whole
  arrays (Proof/Ref.lean). At the extended reals a sum does not depend on the order or the grouping of its terms, a
  product with a 0/1 indicator selects the term, and a change of float format is the identity, so both results are the
  same function of the inputs; no finiteness of the table is needed for that. Proof/Assemble.lean states the five
  claims from these parts. (Proof/LibScatterAddRead.lean holds the general form of the scatter reading, for any extents.)
-/
import proofs.«113808_j15951508537566_2_alg».proof.Defs
import proofs.«113808_j15951508537566_2_alg».proof.Proof.Gen.Kernel
import proofs.«113808_j15951508537566_2_alg».proof.Proof.Gen.Kernel.Skeleton
import proofs.«113808_j15951508537566_2_alg».proof.Proof.Gen.Kernel.Launch
import proofs.«113808_j15951508537566_2_alg».proof.Proof.Gen.Kernel.Points
import proofs.«113808_j15951508537566_2_alg».proof.Proof.Gen.Kernel.Frame
import proofs.«113808_j15951508537566_2_alg».proof.Proof.Gen.KernelIdeal
import proofs.«113808_j15951508537566_2_alg».proof.Proof.Gen.KernelIdeal.Skeleton
import proofs.«113808_j15951508537566_2_alg».proof.Proof.Gen.KernelIdeal.Launch
import proofs.«113808_j15951508537566_2_alg».proof.Proof.Gen.KernelIdeal.Points
import proofs.«113808_j15951508537566_2_alg».proof.Proof.Gen.KernelIdeal.Frame
import proofs.«113808_j15951508537566_2_alg».proof.Proof.Gen.ReferenceIdeal
import proofs.«113808_j15951508537566_2_alg».proof.Proof.Gen.Pre_finite_inputs
import proofs.«113808_j15951508537566_2_alg».proof.Proof.Gen.ReferenceIdeal.Run
import proofs.«113808_j15951508537566_2_alg».proof.Proof.Gen.ReferenceIdeal.Read
import proofs.«113808_j15951508537566_2_alg».proof.Proof.Assemble
import proofs.«113808_j15951508537566_2_alg».proof.Proof.Acc
import proofs.«113808_j15951508537566_2_alg».proof.Proof.Fin
import proofs.«113808_j15951508537566_2_alg».proof.Proof.Ref
import proofs.«113808_j15951508537566_2_alg».proof.Proof.LibScatterAddRead
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves,
    Parts.algebraic Cert.KernelIdeal.Acc.arr2 Cert.KernelIdeal.Acc.arr3 Cert.KernelIdeal.Fin.arr
      Cert.ReferenceIdeal.RefValue.ref_eq⟩

end Cert.Proof

end
